-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v21)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v21) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v113) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x4096x1024 : Shape := ⟨3, ![8, 4096, 1024]⟩
abbrev S3072x1024 : Shape := ⟨2, ![3072, 1024]⟩
abbrev S3072 : Shape := ⟨1, ![3072]⟩
abbrev S1x1024 : Shape := ⟨2, ![1, 1024]⟩
abbrev S1 : Shape := ⟨1, ![1]⟩
abbrev S_ : Shape := ⟨0, ![]⟩

class Facts : Prop where
  bcast_S_S8x4096x1024 : S_.BroadcastsInDim S8x4096x1024 (![] : Fin 0 → Fin S8x4096x1024.rank)
  reducesTo_S8x4096x1024_S_d0_1_2 : S8x4096x1024.ReducesTo [0, 1, 2] S_
  h_S_ : 0 < S_.numel
  bcast_S_S3072x1024 : S_.BroadcastsInDim S3072x1024 (![] : Fin 0 → Fin S3072x1024.rank)
  reducesTo_S3072x1024_S_d0_1 : S3072x1024.ReducesTo [0, 1] S_
  bcast_S_S3072 : S_.BroadcastsInDim S3072 (![] : Fin 0 → Fin S3072.rank)
  reducesTo_S3072_S_d0 : S3072.ReducesTo [0] S_
  bcast_S_S1x1024 : S_.BroadcastsInDim S1x1024 (![] : Fin 0 → Fin S1x1024.rank)
  reducesTo_S1x1024_S_d0_1 : S1x1024.ReducesTo [0, 1] S_
  bcast_S_S1 : S_.BroadcastsInDim S1 (![] : Fin 0 → Fin S1.rank)
  reducesTo_S1_S_d0 : S1.ReducesTo [0] S_

variable [Facts]

def fn_part1 {F : FTy → Type} [FloatOps F] (main_arg4 : FVec F S3072 .f32) (main_arg5 : FVec F S1x1024 .f32) (main_arg6 : FVec F S1 .f32) (main_v13 : IVec S_ 1) (main_v16 : IVec S3072 1) : IVec S_ 1 :=
  let main_c_5 : IVec S_ 1 := constantI S_ 1 1#1
  let main_v17 : IVec S_ 1 := (fun x v => Host.reduce IntOp.andi x v reducesTo_S3072_S_d0 h_S_) main_v16 main_c_5
  let main_v18 : IVec S_ 1 := andi main_v13 main_v17
  let main_v19 : FVec F S3072 .f32 := Host.absf main_arg4
  let main_cst_6 : FVec F S_ .f32 := constant S_ .f32 0x7F800000#32
  let main_v20 : FVec F S3072 .f32 := broadcastInDim S3072 ![] bcast_S_S3072 main_cst_6
  let main_v21 : IVec S3072 1 := cmpf .olt main_v19 main_v20
  let main_c_7 : IVec S_ 1 := constantI S_ 1 1#1
  let main_v22 : IVec S_ 1 := (fun x v => Host.reduce IntOp.andi x v reducesTo_S3072_S_d0 h_S_) main_v21 main_c_7
  let main_v23 : IVec S_ 1 := andi main_v18 main_v22
  let main_v24 : FVec F S1x1024 .f32 := Host.absf main_arg5
  let main_cst_8 : FVec F S_ .f32 := constant S_ .f32 0x7F800000#32
  let main_v25 : FVec F S1x1024 .f32 := broadcastInDim S1x1024 ![] bcast_S_S1x1024 main_cst_8
  let main_v26 : IVec S1x1024 1 := cmpf .olt main_v24 main_v25
  let main_c_9 : IVec S_ 1 := constantI S_ 1 1#1
  let main_v27 : IVec S_ 1 := (fun x v => Host.reduce IntOp.andi x v reducesTo_S1x1024_S_d0_1 h_S_) main_v26 main_c_9
  let main_v28 : IVec S_ 1 := andi main_v23 main_v27
  let main_v29 : FVec F S1 .f32 := Host.absf main_arg6
  let main_cst_10 : FVec F S_ .f32 := constant S_ .f32 0x7F800000#32
  let main_v30 : FVec F S1 .f32 := broadcastInDim S1 ![] bcast_S_S1 main_cst_10
  let main_v31 : IVec S1 1 := cmpf .olt main_v29 main_v30
  let main_c_11 : IVec S_ 1 := constantI S_ 1 1#1
  let main_v32 : IVec S_ 1 := (fun x v => Host.reduce IntOp.andi x v reducesTo_S1_S_d0 h_S_) main_v31 main_c_11
  let main_v33 : IVec S_ 1 := andi main_v28 main_v32
  main_v33

def fn {F : FTy → Type} [FloatOps F] (main_arg0 : FVec F S8x4096x1024 .f32) (main_arg1 : FVec F S3072x1024 .f32) (main_arg2 : FVec F S3072x1024 .f32) (main_arg3 : FVec F S3072 .f32) (main_arg4 : FVec F S3072 .f32) (main_arg5 : FVec F S1x1024 .f32) (main_arg6 : FVec F S1 .f32) : IVec S_ 1 :=
  let main_v0 : FVec F S8x4096x1024 .f32 := Host.absf main_arg0
  let main_cst : FVec F S_ .f32 := constant S_ .f32 0x7F800000#32
  let main_v1 : FVec F S8x4096x1024 .f32 := broadcastInDim S8x4096x1024 ![] bcast_S_S8x4096x1024 main_cst
  let main_v2 : IVec S8x4096x1024 1 := cmpf .olt main_v0 main_v1
  let main_c : IVec S_ 1 := constantI S_ 1 1#1
  let main_v3 : IVec S_ 1 := (fun x v => Host.reduce IntOp.andi x v reducesTo_S8x4096x1024_S_d0_1_2 h_S_) main_v2 main_c
  let main_v4 : FVec F S3072x1024 .f32 := Host.absf main_arg1
  let main_cst_0 : FVec F S_ .f32 := constant S_ .f32 0x7F800000#32
  let main_v5 : FVec F S3072x1024 .f32 := broadcastInDim S3072x1024 ![] bcast_S_S3072x1024 main_cst_0
  let main_v6 : IVec S3072x1024 1 := cmpf .olt main_v4 main_v5
  let main_c_1 : IVec S_ 1 := constantI S_ 1 1#1
  let main_v7 : IVec S_ 1 := (fun x v => Host.reduce IntOp.andi x v reducesTo_S3072x1024_S_d0_1 h_S_) main_v6 main_c_1
  let main_v8 : IVec S_ 1 := andi main_v3 main_v7
  let main_v9 : FVec F S3072x1024 .f32 := Host.absf main_arg2
  let main_cst_2 : FVec F S_ .f32 := constant S_ .f32 0x7F800000#32
  let main_v10 : FVec F S3072x1024 .f32 := broadcastInDim S3072x1024 ![] bcast_S_S3072x1024 main_cst_2
  let main_v11 : IVec S3072x1024 1 := cmpf .olt main_v9 main_v10
  let main_c_3 : IVec S_ 1 := constantI S_ 1 1#1
  let main_v12 : IVec S_ 1 := (fun x v => Host.reduce IntOp.andi x v reducesTo_S3072x1024_S_d0_1 h_S_) main_v11 main_c_3
  let main_v13 : IVec S_ 1 := andi main_v8 main_v12
  let main_v14 : FVec F S3072 .f32 := Host.absf main_arg3
  let main_cst_4 : FVec F S_ .f32 := constant S_ .f32 0x7F800000#32
  let main_v15 : FVec F S3072 .f32 := broadcastInDim S3072 ![] bcast_S_S3072 main_cst_4
  let main_v16 : IVec S3072 1 := cmpf .olt main_v14 main_v15
  fn_part1 (F := F) main_arg4 main_arg5 main_arg6 main_v13 main_v16
-- ==== Kernel.lean ====
abbrev S8x4096x1024 : Shape := ⟨3, ![8, 4096, 1024]⟩
abbrev S3072x1024 : Shape := ⟨2, ![3072, 1024]⟩
abbrev S3072 : Shape := ⟨1, ![3072]⟩
abbrev S1x1024 : Shape := ⟨2, ![1, 1024]⟩
abbrev S1 : Shape := ⟨1, ![1]⟩
abbrev S32768x1024 : Shape := ⟨2, ![32768, 1024]⟩
abbrev S2048x1024 : Shape := ⟨2, ![2048, 1024]⟩
abbrev S1024x2048 : Shape := ⟨2, ![1024, 2048]⟩
abbrev S2048 : Shape := ⟨1, ![2048]⟩
abbrev S1x2048 : Shape := ⟨2, ![1, 2048]⟩
abbrev S1024x1024 : Shape := ⟨2, ![1024, 1024]⟩
abbrev S1024 : Shape := ⟨1, ![1024]⟩
abbrev S1x1 : Shape := ⟨2, ![1, 1]⟩
abbrev S256x1024 : Shape := ⟨2, ![256, 1024]⟩
abbrev S256x2048 : Shape := ⟨2, ![256, 2048]⟩
abbrev S256 : Shape := ⟨1, ![256]⟩
abbrev S256x1 : Shape := ⟨2, ![256, 1]⟩

abbrev nBuf : Space → Nat
  | .hbm => 29
  | .vmem => 10
  | .smem => 0
  | _ => 0

abbrev bufTy : (tb : Table) → Fin (tcTables nBuf tb) → BufTy
  | .hbm, ⟨0, _⟩ => ⟨S8x4096x1024, .f32⟩
  | .hbm, ⟨1, _⟩ => ⟨S3072x1024, .f32⟩
  | .hbm, ⟨2, _⟩ => ⟨S3072x1024, .f32⟩
  | .hbm, ⟨3, _⟩ => ⟨S3072, .f32⟩
  | .hbm, ⟨4, _⟩ => ⟨S3072, .f32⟩
  | .hbm, ⟨5, _⟩ => ⟨S1x1024, .f32⟩
  | .hbm, ⟨6, _⟩ => ⟨S1, .f32⟩
  | .hbm, ⟨7, _⟩ => ⟨S32768x1024, .f32⟩
  | .hbm, ⟨8, _⟩ => ⟨S2048x1024, .f32⟩
  | .hbm, ⟨9, _⟩ => ⟨S2048x1024, .f32⟩
  | .hbm, ⟨10, _⟩ => ⟨S2048x1024, .f32⟩
  | .hbm, ⟨11, _⟩ => ⟨S1024x2048, .f32⟩
  | .hbm, ⟨12, _⟩ => ⟨S1024x2048, .bf16⟩
  | .hbm, ⟨13, _⟩ => ⟨S2048, .f32⟩
  | .hbm, ⟨14, _⟩ => ⟨S2048, .f32⟩
  | .hbm, ⟨15, _⟩ => ⟨S2048, .f32⟩
  | .hbm, ⟨16, _⟩ => ⟨S1x2048, .f32⟩
  | .hbm, ⟨17, _⟩ => ⟨S1024x1024, .f32⟩
  | .hbm, ⟨18, _⟩ => ⟨S1024x1024, .f32⟩
  | .hbm, ⟨19, _⟩ => ⟨S2048x1024, .f32⟩
  | .hbm, ⟨20, _⟩ => ⟨S1024x2048, .f32⟩
  | .hbm, ⟨21, _⟩ => ⟨S1024x2048, .bf16⟩
  | .hbm, ⟨22, _⟩ => ⟨S1024, .f32⟩
  | .hbm, ⟨23, _⟩ => ⟨S1024, .f32⟩
  | .hbm, ⟨24, _⟩ => ⟨S2048, .f32⟩
  | .hbm, ⟨25, _⟩ => ⟨S1x2048, .f32⟩
  | .hbm, ⟨26, _⟩ => ⟨S1x1, .f32⟩
  | .hbm, ⟨27, _⟩ => ⟨S32768x1024, .f32⟩
  | .hbm, ⟨28, _⟩ => ⟨S8x4096x1024, .f32⟩
  | .local _ .vmem, ⟨0, _⟩ => ⟨S256x1024, .f32⟩
  | .local _ .vmem, ⟨1, _⟩ => ⟨S256x1024, .f32⟩
  | .local _ .vmem, ⟨2, _⟩ => ⟨S1024x2048, .bf16⟩
  | .local _ .vmem, ⟨3, _⟩ => ⟨S1024x2048, .bf16⟩
  | .local _ .vmem, ⟨4, _⟩ => ⟨S1x2048, .f32⟩
  | .local _ .vmem, ⟨5, _⟩ => ⟨S1x2048, .f32⟩
  | .local _ .vmem, ⟨6, _⟩ => ⟨S1x1024, .f32⟩
  | .local _ .vmem, ⟨7, _⟩ => ⟨S1x1, .f32⟩
  | .local _ .vmem, ⟨8, _⟩ => ⟨S256x1024, .f32⟩
  | .local _ .vmem, ⟨9, _⟩ => ⟨S256x1024, .f32⟩
  | _, _ => ⟨S8x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg7_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem7_1 : DmaSem sig := 9

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x2048 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S256x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

class Facts₀ : Prop where
  shapeCasts_S8x4096x1024_S32768x1024 : S8x4096x1024.ShapeCasts S32768x1024
  slices_S3072x1024_S2048x1024_0_0 : S3072x1024.Slices ![0, 0] S2048x1024
  transposes_S2048x1024_S1024x2048_1_0 : S2048x1024.Transposes [1, 0] S1024x2048
  bitsLt_bf16_f32 : FTy.bits .bf16 < FTy.bits .f32
  slices_S3072_S2048_0 : S3072.Slices ![0] S2048
  shapeCasts_S2048_S1x2048 : S2048.ShapeCasts S1x2048
  slices_S3072x1024_S1024x1024_2048_0 : S3072x1024.Slices ![2048, 0] S1024x1024
  concatenates_S1024x1024_S1024x1024_S2048x1024_d0 : Shape.Concatenates [S1024x1024, S1024x1024] S2048x1024 0
  slices_S3072_S1024_2048 : S3072.Slices ![2048] S1024
  concatenates_S1024_S1024_S2048_d0 : Shape.Concatenates [S1024, S1024] S2048 0
  shapeCasts_S1_S1x1 : S1.ShapeCasts S1x1
  inb_S256x1024_S256x1024_0_0 : ∀ a, (![0, 0] : Fin 2 → Nat) a + S256x1024.size a ≤ S256x1024.size a
  h_S256x1024 : 0 < S256x1024.numel
  shapeCasts_S256x1024_S256x1024 : S256x1024.ShapeCasts S256x1024
  inb_S1024x2048_S1024x2048_0_0 : ∀ a, (![0, 0] : Fin 2 → Nat) a + S1024x2048.size a ≤ S1024x2048.size a
  h_S1024x2048 : 0 < S1024x2048.numel
  shapeCasts_S1024x2048_S1024x2048 : S1024x2048.ShapeCasts S1024x2048
  inb_S1x2048_S1x2048_0_0 : ∀ a, (![0, 0] : Fin 2 → Nat) a + S1x2048.size a ≤ S1x2048.size a
  h_S1x2048 : 0 < S1x2048.numel
  shapeCasts_S1x2048_S1x2048 : S1x2048.ShapeCasts S1x2048
  broadcasts_S1x2048_S256x2048 : S1x2048.Broadcasts S256x2048
  slices_S256x2048_o0_0_S256x1024 : S256x2048.Slices ![0, 0] S256x1024
  slices_S256x2048_o0_1024_S256x1024 : S256x2048.Slices ![0, 1024] S256x1024
  inb_S1x1024_S1x1024_0_0 : ∀ a, (![0, 0] : Fin 2 → Nat) a + S1x1024.size a ≤ S1x1024.size a
  h_S1x1024 : 0 < S1x1024.numel
  broadcasts_S1x1024_S256x1024 : S1x1024.Broadcasts S256x1024
  reduces_S256x1024_S256 : S256x1024.Reduces [1] S256
  shapeCasts_S256_S256x1 : S256.ShapeCasts S256x1
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S256x1 : S1x1.Broadcasts S256x1
  shapeCasts_S256x1_S256x1 : S256x1.ShapeCasts S256x1
  broadcasts_S256x1_S256x1024 : S256x1.Broadcasts S256x1024
  shapeCasts_S32768x1024_S8x4096x1024 : S32768x1024.ShapeCasts S8x4096x1024
  dot_S256x1024_S1024x2048_S256x2048_1_0_0_1_n_n_wf : DotDims.WF S256x1024 S1024x2048 S256x2048 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x1024.size a ≤ S32768x1024.size a
  hwx0_0 : ∀ i : grid0.Coords, EltTy.bits .f32 = 32 ∨ (Rect.block (s := S32768x1024) S256x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1024x2048.size a ≤ S1024x2048.size a
  hwx0_1 : ∀ i : grid0.Coords, EltTy.bits .bf16 = 32 ∨ (Rect.block (s := S1024x2048) S1024x2048.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1024x2048.size a ≤ S1024x2048.size a
  hwx0_2 : ∀ i : grid0.Coords, EltTy.bits .bf16 = 32 ∨ (Rect.block (s := S1024x2048) S1024x2048.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x2048.size a ≤ S1x2048.size a
  hwx0_3 : ∀ i : grid0.Coords, EltTy.bits .f32 = 32 ∨ (Rect.block (s := S1x2048) S1x2048.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x2048.size a ≤ S1x2048.size a
  hwx0_4 : ∀ i : grid0.Coords, EltTy.bits .f32 = 32 ∨ (Rect.block (s := S1x2048) S1x2048.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x1024.size a ≤ S1x1024.size a
  hwx0_5 : ∀ i : grid0.Coords, EltTy.bits .f32 = 32 ∨ (Rect.block (s := S1x1024) S1x1024.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x1.size a ≤ S1x1.size a
  hwx0_6 : ∀ i : grid0.Coords, EltTy.bits .f32 = 32 ∨ (Rect.block (s := S1x1) S1x1.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S256x1024.size a ≤ S32768x1024.size a
  hwx0_7 : ∀ i : grid0.Coords, EltTy.bits .f32 = 32 ∨ (Rect.block (s := S32768x1024) S256x1024.size (cc0_transform_7 i) (hinb0_7 i)).WholeWords (EltTy.packing .f32)

variable [Facts₀]

def dot_S256x1024_S1024x2048_S256x2048_1_0_0_1_n_n : DotDims S256x1024 S1024x2048 S256x2048 where
  lhsContracting := [1]
  rhsContracting := [0]
  lhsNonContracting := [0]
  rhsNonContracting := [1]
  lhsBatch := []
  rhsBatch := []
  wf := dot_S256x1024_S1024x2048_S256x2048_1_0_0_1_n_n_wf

abbrev win0_0 : Pipeline.Window sig grid0 :=
  Pipeline.Window.ofSpec (Memref.whole main_v0) S256x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v5) S1024x2048.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v14) S1024x2048.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v9) S1x2048.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v18) S1x2048.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg5) S1x1024.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v19) S1x1.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v20) S256x1024.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

class Facts : Prop extends Facts₀ where

variable [Facts]
-- ==== ReferenceIdeal.lean ====
abbrev S8x4096x1024 : Shape := ⟨3, ![8, 4096, 1024]⟩
abbrev S3072x1024 : Shape := ⟨2, ![3072, 1024]⟩
abbrev S3072 : Shape := ⟨1, ![3072]⟩
abbrev S1x1024 : Shape := ⟨2, ![1, 1024]⟩
abbrev S1 : Shape := ⟨1, ![1]⟩
abbrev S32768x1024 : Shape := ⟨2, ![32768, 1024]⟩
abbrev S1024x1 : Shape := ⟨2, ![1024, 1]⟩
abbrev S32768x1 : Shape := ⟨2, ![32768, 1]⟩
abbrev S1x1 : Shape := ⟨2, ![1, 1]⟩
abbrev S_ : Shape := ⟨0, ![]⟩
abbrev S1024x3072 : Shape := ⟨2, ![1024, 3072]⟩
abbrev S32768x3072 : Shape := ⟨2, ![32768, 3072]⟩
abbrev S1x3072 : Shape := ⟨2, ![1, 3072]⟩

abbrev nBuf : Space → Nat
  | .hbm => 137
  | .vmem => 0
  | .smem => 0
  | _ => 0

abbrev hbmTy0_0 (i : Nat) : BufTy := match i % 128 with
  | 0 => ⟨S8x4096x1024, .f32⟩
  | 1 => ⟨S3072x1024, .f32⟩
  | 2 => ⟨S3072x1024, .f32⟩
  | 3 => ⟨S3072, .f32⟩
  | 4 => ⟨S3072, .f32⟩
  | 5 => ⟨S1x1024, .f32⟩
  | 6 => ⟨S1, .f32⟩
  | 7 => ⟨S32768x1024, .f32⟩
  | 8 => ⟨S1024x1, .f32⟩
  | 9 => ⟨S32768x1, .f32⟩
  | 10 => ⟨S1x1, .f32⟩
  | 11 => ⟨S32768x1, .f32⟩
  | 12 => ⟨S32768x1, .f32⟩
  | 13 => ⟨S32768x1, .f32⟩
  | 14 => ⟨S32768x1, .f32⟩
  | 15 => ⟨S_, .f32⟩
  | 16 => ⟨S32768x1, .f32⟩
  | 17 => ⟨S32768x1, .f32⟩
  | 18 => ⟨S_, .f32⟩
  | 19 => ⟨S32768x1, .f32⟩
  | 20 => ⟨S32768x1, .f32⟩
  | 21 => ⟨S1024x3072, .f32⟩
  | 22 => ⟨S32768x3072, .f32⟩
  | 23 => ⟨S1x3072, .f32⟩
  | 24 => ⟨S32768x3072, .f32⟩
  | 25 => ⟨S32768x3072, .f32⟩
  | 26 => ⟨S1024x3072, .f32⟩
  | 27 => ⟨S32768x3072, .f32⟩
  | 28 => ⟨S1x3072, .f32⟩
  | 29 => ⟨S32768x3072, .f32⟩
  | 30 => ⟨S32768x3072, .f32⟩
  | 31 => ⟨S32768x1024, .f32⟩
  | 32 => ⟨S32768x1024, .f32⟩
  | 33 => ⟨S32768x1024, .f32⟩
  | 34 => ⟨S32768x1024, .f32⟩
  | 35 => ⟨S32768x1024, .f32⟩
  | 36 => ⟨S32768x1024, .f32⟩
  | 37 => ⟨S32768x1024, .f32⟩
  | 38 => ⟨S32768x1024, .f32⟩
  | 39 => ⟨S32768x1024, .f32⟩
  | 40 => ⟨S_, .f32⟩
  | 41 => ⟨S32768x1024, .f32⟩
  | 42 => ⟨S32768x1024, .f32⟩
  | 43 => ⟨S_, .f32⟩
  | 44 => ⟨S32768x1024, .f32⟩
  | 45 => ⟨S32768x1024, .f32⟩
  | 46 => ⟨S32768x1024, .f32⟩
  | 47 => ⟨S32768x1024, .f32⟩
  | 48 => ⟨S32768x1024, .f32⟩
  | 49 => ⟨S_, .f32⟩
  | 50 => ⟨S32768x1024, .f32⟩
  | 51 => ⟨S32768x1024, .f32⟩
  | 52 => ⟨S_, .f32⟩
  | 53 => ⟨S32768x1024, .f32⟩
  | 54 => ⟨S32768x1024, .f32⟩
  | 55 => ⟨S32768x1024, .f32⟩
  | 56 => ⟨S32768x1024, .f32⟩
  | 57 => ⟨S32768x1024, .f32⟩
  | 58 => ⟨S_, .f32⟩
  | 59 => ⟨S32768x1024, .f32⟩
  | 60 => ⟨S32768x1024, .f32⟩
  | 61 => ⟨S32768x1024, .f32⟩
  | 62 => ⟨S32768x1024, .f32⟩
  | 63 => ⟨S32768x1024, .f32⟩
  | 64 => ⟨S_, .f32⟩
  | 65 => ⟨S32768x1, .f32⟩
  | 66 => ⟨S32768x1, .f32⟩
  | 67 => ⟨S32768x1024, .f32⟩
  | 68 => ⟨S32768x1024, .f32⟩
  | 69 => ⟨S32768x1024, .f32⟩
  | 70 => ⟨S32768x1024, .f32⟩
  | 71 => ⟨S32768x1024, .f32⟩
  | 72 => ⟨S1024x1, .f32⟩
  | 73 => ⟨S32768x1, .f32⟩
  | 74 => ⟨S1x1, .f32⟩
  | 75 => ⟨S32768x1, .f32⟩
  | 76 => ⟨S32768x1, .f32⟩
  | 77 => ⟨S32768x1, .f32⟩
  | 78 => ⟨S32768x1, .f32⟩
  | 79 => ⟨S_, .f32⟩
  | 80 => ⟨S32768x1, .f32⟩
  | 81 => ⟨S32768x1, .f32⟩
  | 82 => ⟨S_, .f32⟩
  | 83 => ⟨S32768x1, .f32⟩
  | 84 => ⟨S32768x1, .f32⟩
  | 85 => ⟨S1024x3072, .f32⟩
  | 86 => ⟨S32768x3072, .f32⟩
  | 87 => ⟨S1x3072, .f32⟩
  | 88 => ⟨S32768x3072, .f32⟩
  | 89 => ⟨S32768x3072, .f32⟩
  | 90 => ⟨S1024x3072, .f32⟩
  | 91 => ⟨S32768x3072, .f32⟩
  | 92 => ⟨S1x3072, .f32⟩
  | 93 => ⟨S32768x3072, .f32⟩
  | 94 => ⟨S32768x3072, .f32⟩
  | 95 => ⟨S32768x1024, .f32⟩
  | 96 => ⟨S32768x1024, .f32⟩
  | 97 => ⟨S32768x1024, .f32⟩
  | 98 => ⟨S32768x1024, .f32⟩
  | 99 => ⟨S32768x1024, .f32⟩
  | 100 => ⟨S32768x1024, .f32⟩
  | 101 => ⟨S32768x1024, .f32⟩
  | 102 => ⟨S32768x1024, .f32⟩
  | 103 => ⟨S32768x1024, .f32⟩
  | 104 => ⟨S_, .f32⟩
  | 105 => ⟨S32768x1024, .f32⟩
  | 106 => ⟨S32768x1024, .f32⟩
  | 107 => ⟨S_, .f32⟩
  | 108 => ⟨S32768x1024, .f32⟩
  | 109 => ⟨S32768x1024, .f32⟩
  | 110 => ⟨S32768x1024, .f32⟩
  | 111 => ⟨S32768x1024, .f32⟩
  | 112 => ⟨S32768x1024, .f32⟩
  | 113 => ⟨S_, .f32⟩
  | 114 => ⟨S32768x1024, .f32⟩
  | 115 => ⟨S32768x1024, .f32⟩
  | 116 => ⟨S_, .f32⟩
  | 117 => ⟨S32768x1024, .f32⟩
  | 118 => ⟨S32768x1024, .f32⟩
  | 119 => ⟨S32768x1024, .f32⟩
  | 120 => ⟨S32768x1024, .f32⟩
  | 121 => ⟨S32768x1024, .f32⟩
  | 122 => ⟨S_, .f32⟩
  | 123 => ⟨S32768x1024, .f32⟩
  | 124 => ⟨S32768x1024, .f32⟩
  | 125 => ⟨S32768x1024, .f32⟩
  | 126 => ⟨S32768x1024, .f32⟩
  | 127 => ⟨S32768x1024, .f32⟩
  | _ => ⟨S8x4096x1024, .f32⟩

abbrev hbmTy0_1 (i : Nat) : BufTy := match i % 128 with
  | 0 => ⟨S_, .f32⟩
  | 1 => ⟨S32768x1, .f32⟩
  | 2 => ⟨S32768x1, .f32⟩
  | 3 => ⟨S32768x1024, .f32⟩
  | 4 => ⟨S32768x1024, .f32⟩
  | 5 => ⟨S32768x1024, .f32⟩
  | 6 => ⟨S32768x1024, .f32⟩
  | 7 => ⟨S32768x1024, .f32⟩
  | 8 => ⟨S8x4096x1024, .f32⟩
  | _ => ⟨S8x4096x1024, .f32⟩

abbrev hbmTy (i : Nat) : BufTy := match i / 128 with
  | 0 => hbmTy0_0 i
  | 1 => hbmTy0_1 i
  | _ => ⟨S8x4096x1024, .f32⟩

abbrev bufTy : (tb : Table) → Fin (tcTables nBuf tb) → BufTy
  | .hbm, ⟨i, _⟩ => hbmTy i
  | _, _ => ⟨S8x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst : Ref sig .tc := ⟨.hbm, 15, rfl⟩
abbrev main_v8 : Ref sig .tc := ⟨.hbm, 16, rfl⟩
abbrev main_v9 : Ref sig .tc := ⟨.hbm, 17, rfl⟩
abbrev main_cst_0 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_cst_1 : Ref sig .tc := ⟨.hbm, 40, rfl⟩
abbrev main_v31 : Ref sig .tc := ⟨.hbm, 41, rfl⟩
abbrev main_v32 : Ref sig .tc := ⟨.hbm, 42, rfl⟩
abbrev main_cst_2 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_cst_3 : Ref sig .tc := ⟨.hbm, 49, rfl⟩
abbrev main_v38 : Ref sig .tc := ⟨.hbm, 50, rfl⟩
abbrev main_v39 : Ref sig .tc := ⟨.hbm, 51, rfl⟩
abbrev main_cst_4 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_cst_5 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_cst_6 : Ref sig .tc := ⟨.hbm, 64, rfl⟩
abbrev main_v50 : Ref sig .tc := ⟨.hbm, 65, rfl⟩
abbrev main_v51 : Ref sig .tc := ⟨.hbm, 66, rfl⟩
abbrev main_v52 : Ref sig .tc := ⟨.hbm, 67, rfl⟩
abbrev main_v53 : Ref sig .tc := ⟨.hbm, 68, rfl⟩
abbrev main_v54 : Ref sig .tc := ⟨.hbm, 69, rfl⟩
abbrev main_v55 : Ref sig .tc := ⟨.hbm, 70, rfl⟩
abbrev main_v56 : Ref sig .tc := ⟨.hbm, 71, rfl⟩
abbrev main_v57 : Ref sig .tc := ⟨.hbm, 72, rfl⟩
abbrev main_v58 : Ref sig .tc := ⟨.hbm, 73, rfl⟩
abbrev main_v59 : Ref sig .tc := ⟨.hbm, 74, rfl⟩
abbrev main_v60 : Ref sig .tc := ⟨.hbm, 75, rfl⟩
abbrev main_v61 : Ref sig .tc := ⟨.hbm, 76, rfl⟩
abbrev main_v62 : Ref sig .tc := ⟨.hbm, 77, rfl⟩
abbrev main_v63 : Ref sig .tc := ⟨.hbm, 78, rfl⟩
abbrev main_cst_7 : Ref sig .tc := ⟨.hbm, 79, rfl⟩
abbrev main_v64 : Ref sig .tc := ⟨.hbm, 80, rfl⟩
abbrev main_v65 : Ref sig .tc := ⟨.hbm, 81, rfl⟩
abbrev main_cst_8 : Ref sig .tc := ⟨.hbm, 82, rfl⟩
abbrev main_v66 : Ref sig .tc := ⟨.hbm, 83, rfl⟩
abbrev main_v67 : Ref sig .tc := ⟨.hbm, 84, rfl⟩
abbrev main_v68 : Ref sig .tc := ⟨.hbm, 85, rfl⟩
abbrev main_v69 : Ref sig .tc := ⟨.hbm, 86, rfl⟩
abbrev main_v70 : Ref sig .tc := ⟨.hbm, 87, rfl⟩
abbrev main_v71 : Ref sig .tc := ⟨.hbm, 88, rfl⟩
abbrev main_v72 : Ref sig .tc := ⟨.hbm, 89, rfl⟩
abbrev main_v73 : Ref sig .tc := ⟨.hbm, 90, rfl⟩
abbrev main_v74 : Ref sig .tc := ⟨.hbm, 91, rfl⟩
abbrev main_v75 : Ref sig .tc := ⟨.hbm, 92, rfl⟩
abbrev main_v76 : Ref sig .tc := ⟨.hbm, 93, rfl⟩
abbrev main_v77 : Ref sig .tc := ⟨.hbm, 94, rfl⟩
abbrev main_v78 : Ref sig .tc := ⟨.hbm, 95, rfl⟩
abbrev main_v79 : Ref sig .tc := ⟨.hbm, 96, rfl⟩
abbrev main_v80 : Ref sig .tc := ⟨.hbm, 97, rfl⟩
abbrev main_v81 : Ref sig .tc := ⟨.hbm, 98, rfl⟩
abbrev main_v82 : Ref sig .tc := ⟨.hbm, 99, rfl⟩
abbrev main_v83 : Ref sig .tc := ⟨.hbm, 100, rfl⟩
abbrev main_v84 : Ref sig .tc := ⟨.hbm, 101, rfl⟩
abbrev main_v85 : Ref sig .tc := ⟨.hbm, 102, rfl⟩
abbrev main_v86 : Ref sig .tc := ⟨.hbm, 103, rfl⟩
abbrev main_cst_9 : Ref sig .tc := ⟨.hbm, 104, rfl⟩
abbrev main_v87 : Ref sig .tc := ⟨.hbm, 105, rfl⟩
abbrev main_v88 : Ref sig .tc := ⟨.hbm, 106, rfl⟩
abbrev main_cst_10 : Ref sig .tc := ⟨.hbm, 107, rfl⟩
abbrev main_v89 : Ref sig .tc := ⟨.hbm, 108, rfl⟩
abbrev main_v90 : Ref sig .tc := ⟨.hbm, 109, rfl⟩
abbrev main_v91 : Ref sig .tc := ⟨.hbm, 110, rfl⟩
abbrev main_v92 : Ref sig .tc := ⟨.hbm, 111, rfl⟩
abbrev main_v93 : Ref sig .tc := ⟨.hbm, 112, rfl⟩
abbrev main_cst_11 : Ref sig .tc := ⟨.hbm, 113, rfl⟩
abbrev main_v94 : Ref sig .tc := ⟨.hbm, 114, rfl⟩
abbrev main_v95 : Ref sig .tc := ⟨.hbm, 115, rfl⟩
abbrev main_cst_12 : Ref sig .tc := ⟨.hbm, 116, rfl⟩
abbrev main_v96 : Ref sig .tc := ⟨.hbm, 117, rfl⟩
abbrev main_v97 : Ref sig .tc := ⟨.hbm, 118, rfl⟩
abbrev main_v98 : Ref sig .tc := ⟨.hbm, 119, rfl⟩
abbrev main_v99 : Ref sig .tc := ⟨.hbm, 120, rfl⟩
abbrev main_v100 : Ref sig .tc := ⟨.hbm, 121, rfl⟩
abbrev main_cst_13 : Ref sig .tc := ⟨.hbm, 122, rfl⟩
abbrev main_v101 : Ref sig .tc := ⟨.hbm, 123, rfl⟩
abbrev main_v102 : Ref sig .tc := ⟨.hbm, 124, rfl⟩
abbrev main_v103 : Ref sig .tc := ⟨.hbm, 125, rfl⟩
abbrev main_v104 : Ref sig .tc := ⟨.hbm, 126, rfl⟩
abbrev main_v105 : Ref sig .tc := ⟨.hbm, 127, rfl⟩
abbrev main_cst_14 : Ref sig .tc := ⟨.hbm, 128, rfl⟩
abbrev main_v106 : Ref sig .tc := ⟨.hbm, 129, rfl⟩
abbrev main_v107 : Ref sig .tc := ⟨.hbm, 130, rfl⟩
abbrev main_v108 : Ref sig .tc := ⟨.hbm, 131, rfl⟩
abbrev main_v109 : Ref sig .tc := ⟨.hbm, 132, rfl⟩
abbrev main_v110 : Ref sig .tc := ⟨.hbm, 133, rfl⟩
abbrev main_v111 : Ref sig .tc := ⟨.hbm, 134, rfl⟩
abbrev main_v112 : Ref sig .tc := ⟨.hbm, 135, rfl⟩
abbrev main_v113 : Ref sig .tc := ⟨.hbm, 136, rfl⟩

abbrev nD : Nat := 1
abbrev τ : Topo := Topo.v7x

variable {F : FTy → Type} [FloatOps F]

class Facts₀ : Prop where
  shapeCasts_S8x4096x1024_S32768x1024 : S8x4096x1024.ShapeCasts S32768x1024
  transposes_S1x1024_S1024x1_1_0 : S1x1024.Transposes [1, 0] S1024x1
  bcast_S1_S1x1_1 : S1.BroadcastsInDim S1x1 (![1] : Fin 1 → Fin S1x1.rank)
  bcast_S1x1_S32768x1_0_1 : S1x1.BroadcastsInDim S32768x1 (![0, 1] : Fin 2 → Fin S32768x1.rank)
  bcast_S_S32768x1 : S_.BroadcastsInDim S32768x1 (![] : Fin 0 → Fin S32768x1.rank)
  transposes_S3072x1024_S1024x3072_1_0 : S3072x1024.Transposes [1, 0] S1024x3072
  bcast_S3072_S1x3072_1 : S3072.BroadcastsInDim S1x3072 (![1] : Fin 1 → Fin S1x3072.rank)
  bcast_S1x3072_S32768x3072_0_1 : S1x3072.BroadcastsInDim S32768x3072 (![0, 1] : Fin 2 → Fin S32768x3072.rank)
  slices_S32768x3072_S32768x1024_0_0 : S32768x3072.Slices ![0, 0] S32768x1024
  slices_S32768x3072_S32768x1024_0_1024 : S32768x3072.Slices ![0, 1024] S32768x1024
  slices_S32768x3072_S32768x1024_0_2048 : S32768x3072.Slices ![0, 2048] S32768x1024
  bcast_S_S32768x1024 : S_.BroadcastsInDim S32768x1024 (![] : Fin 0 → Fin S32768x1024.rank)
  bcast_S32768x1_S32768x1024_0_1 : S32768x1.BroadcastsInDim S32768x1024 (![0, 1] : Fin 2 → Fin S32768x1024.rank)
  shapeCasts_S32768x1024_S8x4096x1024 : S32768x1024.ShapeCasts S8x4096x1024
  dot_S32768x1024_S1024x1_S32768x1_1_0_0_1_n_n_wf : DotDims.WF S32768x1024 S1024x1 S32768x1 [1] [0] [0] [1] [] []
  dot_S32768x1024_S1024x3072_S32768x3072_1_0_0_1_n_n_wf : DotDims.WF S32768x1024 S1024x3072 S32768x3072 [1] [0] [0] [1] [] []

variable [Facts₀]

def dot_S32768x1024_S1024x1_S32768x1_1_0_0_1_n_n : DotDims S32768x1024 S1024x1 S32768x1 where
  lhsContracting := [1]
  rhsContracting := [0]
  lhsNonContracting := [0]
  rhsNonContracting := [1]
  lhsBatch := []
  rhsBatch := []
  wf := dot_S32768x1024_S1024x1_S32768x1_1_0_0_1_n_n_wf
def dot_S32768x1024_S1024x3072_S32768x3072_1_0_0_1_n_n : DotDims S32768x1024 S1024x3072 S32768x3072 where
  lhsContracting := [1]
  rhsContracting := [0]
  lhsNonContracting := [0]
  rhsNonContracting := [1]
  lhsBatch := []
  rhsBatch := []
  wf := dot_S32768x1024_S1024x3072_S32768x3072_1_0_0_1_n_n_wf

class Facts : Prop extends Facts₀ where

variable [Facts]
-- ==== Proof.LibFiniteInputs.lean ====
/-
  Finite inputs.  A precondition of the form "every entry's absolute value is below +∞", taken over a whole array by an
  all-reduction, makes every entry of the array a real number: an all-reduction that is 1 has every compared entry 1;
  the word `0x7F800000` denotes `⊤`; and an extended real with `max x (-x) < ⊤` is neither infinity.
  Generic in the array's shape and in the axes reduced; the scalar shape is spelt literally so that any program's own
  abbreviation of it unifies.
-/
import Idealize.ShloMosaic.Lib.ReduceAll
import Idealize.ShloMosaic.Lib.ValueIdx
import Idealize.ShloMosaic.PureOps.Ideal.Laws

noncomputable section

namespace Cert.FiniteInputs

open Idealize.ShloMosaic Idealize.ShloMosaic.ValueIdx

/-- The scalar shape. -/
abbrev S0 : Shape := ⟨0, ![]⟩

instance : Subsingleton S0.Idx := ⟨fun a b => funext fun d => d.elim0⟩

/-- The word of +∞ denotes `⊤`. -/
theorem inf_f32 : Ideal.ofBits .f32 0x7F800000#32 = ⊤ := by simp [Ideal.ofBits, Ideal.ieee]

/-- An extended real whose absolute value compares below +∞ is a real. -/
theorem real_of_lt (x : EReal) (h : Ideal.cmp .olt (max x (-x)) (Ideal.ofBits .f32 0x7F800000#32) = 1#1) :
    ∃ r : ℝ, x = ((r : ℝ) : EReal) := by
  rw [inf_f32] at h
  have hlt : max x (-x) < ⊤ := by
    by_contra hn
    have : Ideal.cmp .olt (max x (-x)) ⊤ = 0#1 := by simp [Ideal.cmp, hn]
    rw [this] at h
    exact absurd h (by decide)
  induction x using EReal.rec with
  | bot => exact absurd hlt (by simp)
  | coe r => exact ⟨r, rfl⟩
  | top => exact absurd hlt (by simp)

/-- One array: the all-reduction of `|a| < +∞` is 1, so every entry of `a` is a real. -/
theorem all_real {s : Shape} {axes : List (Fin s.rank)} (a : FVec Ideal s .f32) (hb : S0.BroadcastsInDim s (![] : Fin 0 → Fin s.rank))
    (hr : s.ReducesTo axes S0) (hn : 0 < S0.numel)
    (e : Host.reduce IntOp.andi (cmpf .olt (Host.absf a) (broadcastInDim s ![] hb (constant (F := Ideal) S0 .f32 0x7F800000#32)))
      (constantI S0 1 1#1) hr hn ix0 = 1#1) (i : s.Idx) : ∃ r : ℝ, a i = ((r : ℝ) : EReal) :=
  real_of_lt (a i) (Host.reduce_andi_all _ _ hr hn ix0 e i)

end Cert.FiniteInputs

end
-- ==== Proof.Finite.lean ====
/-
  The precondition, read: every entry of every argument is a real number.

  `finite_inputs` is the conjunction, argument by argument, of "every entry's absolute value is below +∞", each an
  all-reduction of a pointwise comparison.  A conjunction that is 1 has both conjuncts 1, and each conjunct makes its
  argument's entries reals (Proof/LibFiniteInputs.lean).
-/
import proofs.«136685_j46291157516382_2_alg».proof.Pre_finite_inputs
import proofs.«136685_j46291157516382_2_alg».proof.Proof.LibFiniteInputs

noncomputable section

namespace Cert.Pre_finite_inputs.Finite

open Cert.Pre_finite_inputs Idealize.ShloMosaic Idealize.ShloMosaic.ValueIdx Cert.FiniteInputs

variable [Facts]

/-- THE PRECONDITION gives every entry of every argument as a real. -/
theorem finite_of_pre (x0 : FVec Ideal S8x4096x1024 .f32) (x1 x2 : FVec Ideal S3072x1024 .f32) (x3 x4 : FVec Ideal S3072 .f32)
    (x5 : FVec Ideal S1x1024 .f32) (x6 : FVec Ideal S1 .f32) (h : fn (F := Ideal) x0 x1 x2 x3 x4 x5 x6 = fun _ => 1#1) :
    (∀ i, ∃ r : ℝ, x0 i = ((r : ℝ) : EReal)) ∧ (∀ i, ∃ r : ℝ, x1 i = ((r : ℝ) : EReal)) ∧ (∀ i, ∃ r : ℝ, x2 i = ((r : ℝ) : EReal))
      ∧ (∀ i, ∃ r : ℝ, x3 i = ((r : ℝ) : EReal)) ∧ (∀ i, ∃ r : ℝ, x4 i = ((r : ℝ) : EReal))
      ∧ (∀ i, ∃ r : ℝ, x5 i = ((r : ℝ) : EReal)) ∧ (∀ i, ∃ r : ℝ, x6 i = ((r : ℝ) : EReal)) := by
  have h0 := congrFun h ix0
  obtain ⟨h5, e6⟩ := IntOp.andi_eq_one.mp h0
  obtain ⟨h4, e5⟩ := IntOp.andi_eq_one.mp h5
  obtain ⟨h3, e4⟩ := IntOp.andi_eq_one.mp h4
  obtain ⟨h2, e3⟩ := IntOp.andi_eq_one.mp h3
  obtain ⟨h1, e2⟩ := IntOp.andi_eq_one.mp h2
  obtain ⟨e0, e1⟩ := IntOp.andi_eq_one.mp h1
  exact ⟨all_real x0 _ _ _ e0, all_real x1 _ _ _ e1, all_real x2 _ _ _ e2, all_real x3 _ _ _ e3, all_real x4 _ _ _ e4,
    all_real x5 _ _ _ e5, all_real x6 _ _ _ e6⟩

end Cert.Pre_finite_inputs.Finite

end
-- ==== Proof.LibRealLift.lean ====
/-
  Finite arrays.  An array of extended reals that is the coercion of an array of reals stays one under every operation
  the two programs apply to finite data: sums, differences, products, a quotient by a nonzero real, `tanh`, `exp`, a
  change of float format (the identity), a matrix product into a zero accumulator, the host's `dot_general`, a sum
  along one axis (the kernel's and the host's), and every change of layout (which only re-indexes).  Each lemma names
  the real array the result is the coercion of, so that all further algebra is done over ℝ.
-/
import Idealize.ShloMosaic.PureOps.Ideal
import Idealize.ShloMosaic.PureOps.Ideal.Laws
import Idealize.ShloMosaic.Lib.ValueIdx
import Idealize.ShloMosaic.Lib.Pipeline.Value

noncomputable section

namespace Cert.RealLift

open Idealize.ShloMosaic

/-- `A` is the coercion of the real array `a`, entry by entry. -/
def IsR {ι : Type} (A : ι → EReal) (a : ι → ℝ) : Prop := ∀ i, A i = ((a i : ℝ) : EReal)

/-- The coercion of a finite sum of reals is the sum of the coercions. -/
theorem coe_sum {ι : Type} (s : Finset ι) (f : ι → ℝ) : ((∑ i ∈ s, f i : ℝ) : EReal) = ∑ i ∈ s, ((f i : ℝ) : EReal) := by
  classical
  induction s using Finset.induction_on with
  | empty => simp
  | insert a s ha ih => rw [Finset.sum_insert ha, Finset.sum_insert ha, EReal.coe_add, ih]

/-- A finite sum of products of finite entries is the coercion of the real sum of products. -/
theorem sum_mul_coe {ι : Type} (s : Finset ι) (f g : ι → EReal) (f' g' : ι → ℝ) (hf : ∀ i, f i = ((f' i : ℝ) : EReal))
    (hg : ∀ i, g i = ((g' i : ℝ) : EReal)) : ∑ i ∈ s, f i * g i = ((∑ i ∈ s, f' i * g' i : ℝ) : EReal) := by
  rw [coe_sum]
  exact Finset.sum_congr rfl fun i _ => by rw [hf i, hg i, EReal.coe_mul]

theorem sum_coe {ι : Type} (s : Finset ι) (f : ι → EReal) (f' : ι → ℝ) (hf : ∀ i, f i = ((f' i : ℝ) : EReal)) :
    ∑ i ∈ s, f i = ((∑ i ∈ s, f' i : ℝ) : EReal) := by
  rw [coe_sum]
  exact Finset.sum_congr rfl fun i _ => hf i

variable {s t : Shape} {φ : FTy}

namespace IsR

theorem of_eq {ι : Type} {A : ι → EReal} {a a' : ι → ℝ} (h : IsR A a) (e : ∀ i, a i = a' i) : IsR A a' :=
  fun i => (h i).trans (congrArg _ (e i))

theorem addf {A B : FVec Ideal s φ} {a b : s.Idx → ℝ} (hA : IsR A a) (hB : IsR B b) :
    IsR (Idealize.ShloMosaic.addf A B) (fun i => a i + b i) := fun i => by
  show A i + B i = _
  rw [hA i, hB i, EReal.coe_add]

theorem subf {A B : FVec Ideal s φ} {a b : s.Idx → ℝ} (hA : IsR A a) (hB : IsR B b) :
    IsR (Idealize.ShloMosaic.subf A B) (fun i => a i - b i) := fun i => by
  show A i - B i = _
  rw [hA i, hB i, EReal.coe_sub]

theorem mulf {A B : FVec Ideal s φ} {a b : s.Idx → ℝ} (hA : IsR A a) (hB : IsR B b) :
    IsR (Idealize.ShloMosaic.mulf A B) (fun i => a i * b i) := fun i => by
  show A i * B i = _
  rw [hA i, hB i, EReal.coe_mul]

/-- A quotient by a nonzero real. -/
theorem div_coe (x y : ℝ) (hy : y ≠ 0) : Ideal.div ((x : ℝ) : EReal) ((y : ℝ) : EReal) = ((x / y : ℝ) : EReal) := by
  rw [Ideal.div_coe hy, ← EReal.coe_mul, mul_one_div]

theorem divf {A B : FVec Ideal s φ} {a b : s.Idx → ℝ} (hA : IsR A a) (hB : IsR B b) (hb : ∀ i, b i ≠ 0) :
    IsR (Idealize.ShloMosaic.divf A B) (fun i => a i / b i) := fun i => by
  show Ideal.div (A i) (B i) = _
  rw [hA i, hB i, div_coe _ _ (hb i)]

theorem hostDivf {A B : FVec Ideal s φ} {a b : s.Idx → ℝ} (hA : IsR A a) (hB : IsR B b) (hb : ∀ i, b i ≠ 0) :
    IsR (Host.divf A B) (fun i => a i / b i) := fun i => by
  show Ideal.div (A i) (B i) = _
  rw [hA i, hB i, div_coe _ _ (hb i)]

theorem tanh {A : FVec Ideal s φ} {a : s.Idx → ℝ} (hA : IsR A a) :
    IsR (Idealize.ShloMosaic.tanh A) (fun i => Real.tanh (a i)) := fun i => by
  show Ideal.tanh (A i) = _
  rw [hA i]; rfl

theorem exp {A : FVec Ideal s φ} {a : s.Idx → ℝ} (hA : IsR A a) :
    IsR (Idealize.ShloMosaic.exp A) (fun i => Real.exp (a i)) := fun i => by
  show Ideal.exp (A i) = _
  rw [hA i]; rfl

theorem hostTanh {A : FVec Ideal s φ} {a : s.Idx → ℝ} (hA : IsR A a) :
    IsR (Host.tanh A) (fun i => Real.tanh (a i)) := fun i => by
  show Ideal.tanh (A i) = _
  rw [hA i]; rfl

theorem hostExp {A : FVec Ideal s φ} {a : s.Idx → ℝ} (hA : IsR A a) :
    IsR (Host.exp A) (fun i => Real.exp (a i)) := fun i => by
  show Ideal.exp (A i) = _
  rw [hA i]; rfl

/-- A change of float format is the identity on the extended reals. -/
theorem truncf {A : FVec Ideal s φ} {a : s.Idx → ℝ} (hA : IsR A a) (ψ : FTy) (h : ψ.bits < φ.bits) :
    IsR (Idealize.ShloMosaic.truncf ψ A h : FVec Ideal s ψ) a := fun i => hA i

theorem extf {A : FVec Ideal s φ} {a : s.Idx → ℝ} (hA : IsR A a) (ψ : FTy) (h : φ.bits < ψ.bits) :
    IsR (Idealize.ShloMosaic.extf ψ A h : FVec Ideal s ψ) a := fun i => hA i

/-- Layout operations only re-index. -/
theorem shapeCast {A : s.Idx → EReal} {a : s.Idx → ℝ} (hA : IsR A a) (h : s.ShapeCasts t) :
    IsR (Idealize.ShloMosaic.shapeCast t A h) (Idealize.ShloMosaic.shapeCast t a h) := fun _ => hA _

theorem broadcastTo {A : s.Idx → EReal} {a : s.Idx → ℝ} (hA : IsR A a) (h : s.Broadcasts t) :
    IsR (Idealize.ShloMosaic.broadcastTo t A h) (Idealize.ShloMosaic.broadcastTo t a h) := fun _ => hA _

theorem broadcastInDim {A : s.Idx → EReal} {a : s.Idx → ℝ} (hA : IsR A a) (dims : Fin s.rank → Fin t.rank)
    (h : s.BroadcastsInDim t dims) :
    IsR (Idealize.ShloMosaic.broadcastInDim t dims h A) (Idealize.ShloMosaic.broadcastInDim t dims h a) := fun _ => hA _

/-- A splat of a real. -/
theorem broadcast {x : EReal} {r : ℝ} (h : x = ((r : ℝ) : EReal)) : IsR (Idealize.ShloMosaic.broadcast s x) (fun _ => r) :=
  fun _ => h

theorem constant {b : BitVec φ.bits} {r : ℝ} (h : Ideal.ofBits φ b = ((r : ℝ) : EReal)) :
    IsR (Idealize.ShloMosaic.constant (F := Ideal) s φ b) (fun _ => r) := fun _ => h

/-- A matrix product of finite operands into the zero accumulator: the real sum of products over the contraction. -/
theorem matmul0 {sl sr so : Shape} {φ₁ φ₂ : FTy} (D : DotDims sl sr so) (prec : Option ContractPrecision)
    {A : FVec Ideal sl φ₁} {B : FVec Ideal sr φ₂} {a : sl.Idx → ℝ} {b : sr.Idx → ℝ} (hA : IsR A a) (hB : IsR B b) :
    IsR (Idealize.ShloMosaic.matmul D prec A B (Idealize.ShloMosaic.constant so .f32 0x00000000#32))
      (fun j => ∑ k : D.contr.Idx, a (D.lhsIdx j k) * b (D.rhsIdx j k)) := fun j => by
  refine (Ideal.matmul_constant_zero_apply D prec A B j).trans ?_
  exact sum_mul_coe _ _ _ _ _ (fun k => hA _) (fun k => hB _)

/-- The host's `dot_general` of finite operands. -/
theorem dotGeneral {sl sr so : Shape} {φ₁ φ₂ : FTy} (D : DotDims sl sr so) (prec : Option ContractPrecision)
    {A : FVec Ideal sl φ₁} {B : FVec Ideal sr φ₂} {a : sl.Idx → ℝ} {b : sr.Idx → ℝ} (hA : IsR A a) (hB : IsR B b) :
    IsR (Host.dotGeneral D prec A B) (fun j => ∑ k : D.contr.Idx, a (D.lhsIdx j k) * b (D.rhsIdx j k)) := fun j => by
  refine (Ideal.dotGeneral_apply D prec .single A B j).trans ?_
  exact sum_mul_coe _ _ _ _ _ (fun k => hA _) (fun k => hB _)

/-- The kernel's sum along one axis of a finite array. -/
theorem multiReduction_add {ax : Fin s.rank} {A : FVec Ideal s φ} {a : s.Idx → ℝ} (hA : IsR A a) (acc : BitVec φ.bits)
    (h : s.Reduces [ax] t) (hφ : FKind.Formats φ) (hacc : acc = FKind.add.neutral φ hφ) :
    IsR (Idealize.ShloMosaic.multiReduction .add [ax] t A acc h hφ hacc) (fun j => ∑ k : Fin (s.size ax), a (h.lift j k)) :=
  fun j => by
    refine (Ideal.multiReduction_add_single A acc h hφ hacc j).trans ?_
    exact sum_coe _ _ _ (fun k => hA _)

end IsR

end Cert.RealLift

end
-- ==== Proof.Spec.lean ====
/-
  The mathematics of the certificate, with no program in sight.

  One step of the recurrence acts on each ROW `s` (1024 extended reals) of the state on its own:
      e = σ(⟨s, we⟩ + be)                                  (the error gate, one number per row)
      r = σ(gi₀ + gh₀),  z = σ(gi₁ + gh₁),  n = tanh(gi₂ + r · gh₂)
      s' = (1 - e) · s + e · ((1 - z) · n + z · s)
  where `gi = s · Wihᵀ + bih` and `gh = s · Whhᵀ + bhh` are rows of 3072 numbers cut in three (index `₀ ₁ ₂`).
  `rowR` is that, spelt as the reference spells it.  `rowK` is the fused spelling: the first two thirds
  are computed as ONE affine map with the SUMMED weights and biases (`w1 = Wih + Whh`, `b1 = bih + bhh` on the first
  2048 gate rows), and the last third as one affine map with the two weight blocks STACKED (`w2`, `b2`).
  The two agree when the state and the weights are finite: `s · (a + b) = s · a + s · b` entry by entry needs all three
  finite on the extended reals, and then sums and re-bracketing are the commutative monoid's.  A step of finite data
  is finite, so the argument repeats.
-/
import Idealize.ShloMosaic.PureOps.Ideal
import proofs.«136685_j46291157516382_2_alg».proof.Proof.LibRealLift

noncomputable section

open scoped BigOperators

namespace Cert.Gru

open Idealize.ShloMosaic Cert.RealLift

/-- Gate row `q` of the first, second and third block of the 3072 gate rows. -/
def g0 (q : Fin 1024) : Fin 3072 := ⟨q.val, by have := q.isLt; omega⟩
def g1 (q : Fin 1024) : Fin 3072 := ⟨1024 + q.val, by have := q.isLt; omega⟩
def g2 (q : Fin 1024) : Fin 3072 := ⟨2048 + q.val, by have := q.isLt; omega⟩
/-- Column `q` of the first and of the second half of a 2048-wide fused matrix. -/
def lo (q : Fin 1024) : Fin 2048 := ⟨q.val, by have := q.isLt; omega⟩
def hi (q : Fin 1024) : Fin 2048 := ⟨1024 + q.val, by have := q.isLt; omega⟩
/-- A fused column among the first 2048 gate rows. -/
def up (j : Fin 2048) : Fin 3072 := ⟨j.val, by have := j.isLt; omega⟩

theorem up_lo (q : Fin 1024) : up (lo q) = g0 q := rfl
theorem up_hi (q : Fin 1024) : up (hi q) = g1 q := rfl

/-- The word of `1.0` denotes `1`. -/
theorem one_f32 : Ideal.ofBits .f32 0x3F800000#32 = 1 := by
  simp [Ideal.ofBits, Ideal.ieee, -EReal.coe_mul]; norm_num

/-- An affine form of a row: `⟨s, w⟩ + b`. -/
def dotb (s w : Fin 1024 → EReal) (b : EReal) : EReal := (∑ k, s k * w k) + b

/-- One entry of the new state from the gates' pre-activations. -/
def cell (e r z i h sq : EReal) : EReal :=
  (1 - e) * sq + e * ((1 - z) * Ideal.tanh (i + r * h) + z * sq)

/-- One step on a row, as the reference spells it. -/
def rowR (wih whh : Fin 3072 → Fin 1024 → EReal) (bih bhh : Fin 3072 → EReal) (we : Fin 1024 → EReal) (be : EReal)
    (s : Fin 1024 → EReal) (q : Fin 1024) : EReal :=
  cell (Ideal.logistic (dotb s we be))
    (Ideal.logistic (dotb s (wih (g0 q)) (bih (g0 q)) + dotb s (whh (g0 q)) (bhh (g0 q))))
    (Ideal.logistic (dotb s (wih (g1 q)) (bih (g1 q)) + dotb s (whh (g1 q)) (bhh (g1 q))))
    (dotb s (wih (g2 q)) (bih (g2 q))) (dotb s (whh (g2 q)) (bhh (g2 q))) (s q)

/-- One step on a row, with fused weights `w1`, `w2` (read column first) and biases `b1`, `b2`. -/
def rowK (w1 w2 : Fin 2048 → Fin 1024 → EReal) (b1 b2 : Fin 2048 → EReal) (we : Fin 1024 → EReal) (be : EReal)
    (s : Fin 1024 → EReal) (q : Fin 1024) : EReal :=
  cell (Ideal.logistic (dotb s we be))
    (Ideal.logistic (dotb s (w1 (lo q)) (b1 (lo q))))
    (Ideal.logistic (dotb s (w1 (hi q)) (b1 (hi q))))
    (dotb s (w2 (lo q)) (b2 (lo q))) (dotb s (w2 (hi q)) (b2 (hi q))) (s q)

/-- Finite entries: `s · (a + b) = s · a + s · b`, then the sum of sums and the re-bracketing. -/
theorem dotb_add {s a b : Fin 1024 → EReal} {s' a' b' : Fin 1024 → ℝ} (hs : ∀ k, s k = ((s' k : ℝ) : EReal))
    (ha : ∀ k, a k = ((a' k : ℝ) : EReal)) (hb : ∀ k, b k = ((b' k : ℝ) : EReal)) (c d : EReal) :
    dotb s (fun k => a k + b k) (c + d) = dotb s a c + dotb s b d := by
  unfold dotb
  have e : ∀ k, s k * (a k + b k) = s k * a k + s k * b k := fun k => by
    rw [hs k, ha k, hb k, ← EReal.coe_add, ← EReal.coe_mul, mul_add, EReal.coe_add, EReal.coe_mul, EReal.coe_mul]
  rw [Finset.sum_congr rfl fun k _ => e k, Finset.sum_add_distrib, add_add_add_comm]

/-- An affine form of finite data is finite. -/
theorem dotb_real {s w : Fin 1024 → EReal} {s' w' : Fin 1024 → ℝ} {b : EReal} {b' : ℝ} (hs : ∀ k, s k = ((s' k : ℝ) : EReal))
    (hw : ∀ k, w k = ((w' k : ℝ) : EReal)) (hb : b = ((b' : ℝ) : EReal)) :
    dotb s w b = (((∑ k, s' k * w' k) + b' : ℝ) : EReal) := by
  unfold dotb
  rw [sum_mul_coe _ _ _ _ _ hs hw, hb, ← EReal.coe_add]

/-- A cell of finite pre-activations is finite. -/
theorem cell_real (e r z i h sq : ℝ) :
    cell (e : EReal) (r : EReal) (z : EReal) (i : EReal) (h : EReal) (sq : EReal)
      = (((1 - e) * sq + e * ((1 - z) * Real.tanh (i + r * h) + z * sq) : ℝ) : EReal) := by
  unfold cell
  have h1 : (1 : EReal) = ((1 : ℝ) : EReal) := rfl
  simp only [h1, ← EReal.coe_mul, ← EReal.coe_add, ← EReal.coe_sub, Ideal.tanh_coe]

/-- THE FUSION: on finite state and weights the fused step is the reference's. -/
theorem rowK_eq_rowR {wih whh : Fin 3072 → Fin 1024 → EReal} {bih bhh : Fin 3072 → EReal} {we : Fin 1024 → EReal} {be : EReal}
    {w1 w2 : Fin 2048 → Fin 1024 → EReal} {b1 b2 : Fin 2048 → EReal} {s : Fin 1024 → EReal}
    {wih' whh' : Fin 3072 → Fin 1024 → ℝ} {s' : Fin 1024 → ℝ}
    (hs : ∀ k, s k = ((s' k : ℝ) : EReal))
    (hwih : ∀ j k, wih j k = ((wih' j k : ℝ) : EReal)) (hwhh : ∀ j k, whh j k = ((whh' j k : ℝ) : EReal))
    (h1 : ∀ j k, w1 j k = wih (up j) k + whh (up j) k) (hb1 : ∀ j, b1 j = bih (up j) + bhh (up j))
    (h2lo : ∀ q k, w2 (lo q) k = wih (g2 q) k) (h2hi : ∀ q k, w2 (hi q) k = whh (g2 q) k)
    (hb2lo : ∀ q, b2 (lo q) = bih (g2 q)) (hb2hi : ∀ q, b2 (hi q) = bhh (g2 q)) (q : Fin 1024) :
    rowK w1 w2 b1 b2 we be s q = rowR wih whh bih bhh we be s q := by
  unfold rowK rowR
  have f : ∀ j : Fin 2048, dotb s (w1 j) (b1 j) = dotb s (wih (up j)) (bih (up j)) + dotb s (whh (up j)) (bhh (up j)) := fun j => by
    rw [show w1 j = fun k => wih (up j) k + whh (up j) k from funext (h1 j), hb1 j]
    exact dotb_add hs (hwih (up j)) (hwhh (up j)) _ _
  rw [f (lo q), f (hi q), up_lo, up_hi, show w2 (lo q) = wih (g2 q) from funext (h2lo q),
    show w2 (hi q) = whh (g2 q) from funext (h2hi q), hb2lo q, hb2hi q]

/-- A step of finite data is finite. -/
theorem rowR_real {wih whh : Fin 3072 → Fin 1024 → EReal} {bih bhh : Fin 3072 → EReal} {we : Fin 1024 → EReal} {be : EReal}
    {s : Fin 1024 → EReal} {wih' whh' : Fin 3072 → Fin 1024 → ℝ} {bih' bhh' : Fin 3072 → ℝ} {we' : Fin 1024 → ℝ} {be' : ℝ}
    {s' : Fin 1024 → ℝ} (hs : ∀ k, s k = ((s' k : ℝ) : EReal))
    (hwih : ∀ j k, wih j k = ((wih' j k : ℝ) : EReal)) (hwhh : ∀ j k, whh j k = ((whh' j k : ℝ) : EReal))
    (hbih : ∀ j, bih j = ((bih' j : ℝ) : EReal)) (hbhh : ∀ j, bhh j = ((bhh' j : ℝ) : EReal))
    (hwe : ∀ k, we k = ((we' k : ℝ) : EReal)) (hbe : be = ((be' : ℝ) : EReal)) (q : Fin 1024) :
    ∃ y : ℝ, rowR wih whh bih bhh we be s q = ((y : ℝ) : EReal) := by
  unfold rowR
  rw [dotb_real hs hwe hbe, dotb_real hs (hwih (g0 q)) (hbih (g0 q)), dotb_real hs (hwhh (g0 q)) (hbhh (g0 q)),
    dotb_real hs (hwih (g1 q)) (hbih (g1 q)), dotb_real hs (hwhh (g1 q)) (hbhh (g1 q)),
    dotb_real hs (hwih (g2 q)) (hbih (g2 q)), dotb_real hs (hwhh (g2 q)) (hbhh (g2 q)), hs q,
    ← EReal.coe_add, ← EReal.coe_add, Ideal.logistic_coe, Ideal.logistic_coe, Ideal.logistic_coe, cell_real]
  exact ⟨_, rfl⟩

end Cert.Gru

end
-- ==== Proof.KernelBlock.lean ====
/-
  What the kernel's body leaves in the output block, entry by entry.

  The body holds a block of 256 state rows and applies the recurrence's step twice.  Read at row `p`, column `q`, each
  operation is the extended reals' own: a matrix product into the zero accumulator is the sum over the contracted
  coordinate, a lane sum is the sum along the row, a slice shifts the column, a row or column broadcast forgets a
  coordinate, a change of float format is the identity.  So one pass over the block is `Gru.rowK` of row `p` — the
  fused weights read column first, the biases read along their one row — and the block after the body is `rowK` of
  `rowK` of the loaded rows.
-/
import proofs.«136685_j46291157516382_2_alg».proof.Proof.Gen.KernelIdeal.Frame
import proofs.«136685_j46291157516382_2_alg».proof.Proof.Spec
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.KernelIdeal.Block

open Cert.KernelIdeal Cert.KernelIdeal.Gen Idealize.ShloMosaic Idealize.ShloMosaic.ValueIdx Cert.Gru

/-- The dimension numbers of the body's four matrix products: [256,1024] · [1024,2048]. -/
abbrev MM := dot_S256x1024_S1024x2048_S256x2048_1_0_0_1_n_n

/-! ## The operands, read by coordinates -/

/-- A [1024,2048] matrix read column first. -/
def colsOf (W : FVec Ideal S1024x2048 .bf16) : Fin 2048 → Fin 1024 → EReal := fun j k => W (ix2 k j)
/-- A [1,2048] bias read along its row. -/
def rowOf (B : FVec Ideal S1x2048 .f32) : Fin 2048 → EReal := fun j => B (ix2 (0 : Fin 1) j)
/-- The [1,1024] error-gate weights read along their row. -/
def weOf (WE : FVec Ideal S1x1024 .f32) : Fin 1024 → EReal := fun k => WE (ix2 (0 : Fin 1) k)
/-- The [1,1] error-gate bias. -/
def beOf (BE : FVec Ideal S1x1 .f32) : EReal := BE (ix2 (0 : Fin 1) (0 : Fin 1))
/-- Row `p` of a block of states. -/
def rowAt (S : FVec Ideal S256x1024 .f32) (p : Fin 256) : Fin 1024 → EReal := fun k => S (ix2 p k)

/-! ## The non-pointwise operations at an index -/

theorem lhs0 (i : S256x2048.Idx) (q : MM.contr.Idx) : (MM.lhsIdx i q 0).val = (i 0).val := by
  unfold DotDims.lhsIdx
  rw [dif_neg (show ¬(0 : Fin S256x1024.rank) ∈ MM.lhsBatch by decide), dif_pos (show (0 : Fin S256x1024.rank) ∈ MM.lhsNonContracting by decide)]
  rfl
theorem lhs1 (i : S256x2048.Idx) (q : MM.contr.Idx) : (MM.lhsIdx i q 1).val = (q ⟨0, by decide⟩).val :=
  MM.lhsIdx_val_of_single rfl i q
theorem rhs0 (i : S256x2048.Idx) (q : MM.contr.Idx) : (MM.rhsIdx i q 0).val = (q ⟨0, by decide⟩).val :=
  MM.rhsIdx_val_of_single rfl i q
theorem rhs1 (i : S256x2048.Idx) (q : MM.contr.Idx) : (MM.rhsIdx i q 1).val = (i 1).val := by
  unfold DotDims.rhsIdx
  rw [dif_neg (show ¬(1 : Fin S1024x2048.rank) ∈ MM.rhsBatch by decide), dif_pos (show (1 : Fin S1024x2048.rank) ∈ MM.rhsNonContracting by decide)]
  rfl

/-- The matrix product into the zero accumulator, at `(p, j)`: the sum over the contracted coordinate. -/
theorem mm_apply (A : FVec Ideal S256x1024 .bf16) (B : FVec Ideal S1024x2048 .bf16) (p : Fin 256) (j : Fin 2048) :
    matmul MM none A B (constant S256x2048 .f32 0x00000000#32) (ix2 p j) = ∑ k : Fin 1024, A (ix2 p k) * B (ix2 k j) := by
  refine (Ideal.matmul_constant_zero_apply MM none A B (ix2 p j)).trans ?_
  rw [← Equiv.sum_comp (contrEquiv1 MM 1024 rfl rfl).symm]
  refine Finset.sum_congr rfl fun k _ => ?_
  have hk := contrEquiv1_symm_val MM 1024 rfl rfl k
  have el : MM.lhsIdx (ix2 p j) ((contrEquiv1 MM 1024 rfl rfl).symm k) = ix2 p k := funext fun a => Fin.ext (by
    match a with
    | ⟨0, _⟩ => exact lhs0 _ _
    | ⟨1, _⟩ => exact (lhs1 _ _).trans hk)
  have er : MM.rhsIdx (ix2 p j) ((contrEquiv1 MM 1024 rfl rfl).symm k) = ix2 k j := funext fun a => Fin.ext (by
    match a with
    | ⟨0, _⟩ => exact (rhs0 _ _).trans hk
    | ⟨1, _⟩ => exact rhs1 _ _)
  rw [el, er]

/-- The lane sum of a [256,1024] block, at row `p`: the sum along the row. -/
theorem lane_apply (v : FVec Ideal S256x1024 .f32) (p : Fin 256) :
    multiReduction (F := Ideal) .add [1] S256 v 0x00000000#32 reduces_S256x1024_S256 (.inl rfl) rfl (ix1 p)
      = ∑ k : Fin 1024, v (ix2 p k) := by
  refine (Ideal.multiReduction_add_single v _ reduces_S256x1024_S256 (.inl rfl) rfl (ix1 p)).trans ?_
  refine Finset.sum_congr rfl fun k _ => congrArg v ?_
  funext c; apply Fin.ext
  match c with
  | ⟨0, _⟩ => rfl
  | ⟨1, _⟩ => rfl

/-- The left half of a [256,2048] array. -/
theorem sliceLo_apply (v : FVec Ideal S256x2048 .f32) (p : Fin 256) (q : Fin 1024) :
    extractStridedSlice S256x1024 ![0, 0] v slices_S256x2048_o0_0_S256x1024 (ix2 p q) = v (ix2 p (lo q)) :=
  extractStridedSlice_apply _ v _ (ix2 p q) (ix2 p (lo q)) fun a => by
    match a with
    | ⟨0, _⟩ => show p.val = 0 + p.val; omega
    | ⟨1, _⟩ => show q.val = 0 + q.val; omega

/-- The right half of a [256,2048] array. -/
theorem sliceHi_apply (v : FVec Ideal S256x2048 .f32) (p : Fin 256) (q : Fin 1024) :
    extractStridedSlice S256x1024 ![0, 1024] v slices_S256x2048_o0_1024_S256x1024 (ix2 p q) = v (ix2 p (hi q)) :=
  extractStridedSlice_apply _ v _ (ix2 p q) (ix2 p (hi q)) fun a => by
    match a with
    | ⟨0, _⟩ => show p.val = 0 + p.val; omega
    | ⟨1, _⟩ => show 1024 + q.val = 1024 + q.val; rfl

/-- A vector of 256 entries cast to a column, at `(p, 0)`. -/
theorem col_apply {α : Type} (v : S256.Idx → α) (p : Fin 256) (z : Fin 1) :
    shapeCast S256x1 v shapeCasts_S256_S256x1 (ix2 p z) = v (ix1 p) :=
  shapeCast_apply v _ (ix2 p z) (ix1 p) (by
    rw [Shape.rowMajor_val_one, Shape.rowMajor_val_two]
    have hz : z.val = 0 := by have := z.isLt; omega
    show p.val = p.val * 1 + z.val; omega)

/-- A column broadcast along its rows, at `(p, q)`. -/
theorem colBcast_apply {α : Type} (v : S256x1.Idx → α) (p : Fin 256) (q : Fin 1024) :
    broadcastTo S256x1024 v broadcasts_S256x1_S256x1024 (ix2 p q) = v (ix2 p (0 : Fin 1)) :=
  broadcastTo_apply v _ (ix2 p q) (ix2 p (0 : Fin 1)) fun a => by
    match a with
    | ⟨0, _⟩ => rfl
    | ⟨1, _⟩ => rfl

/-! ## One pass over the block -/

/-- An affine map of the block's rows: the matrix product with fused weights `W` plus the bias row `B`. -/
def gateV (S : FVec Ideal S256x1024 .f32) (W : FVec Ideal S1024x2048 .bf16) (B : FVec Ideal S1x2048 .f32) : FVec Ideal S256x2048 .f32 :=
  addf (matmul MM none (truncf .bf16 S bitsLt_bf16_f32) (shapeCast S1024x2048 W shapeCasts_S1024x2048_S1024x2048) (constant S256x2048 .f32 0x00000000#32))
    (broadcastTo S256x2048 (shapeCast S1x2048 B shapeCasts_S1x2048_S1x2048) broadcasts_S1x2048_S256x2048)

/-- The candidate state: `(1 - z) · tanh(i + r · h) + z · s` from the two affine maps' halves. -/
def gruV (S : FVec Ideal S256x1024 .f32) (W1 : FVec Ideal S1024x2048 .bf16) (B1 : FVec Ideal S1x2048 .f32)
    (W2 : FVec Ideal S1024x2048 .bf16) (B2 : FVec Ideal S1x2048 .f32) : FVec Ideal S256x1024 .f32 :=
  addf
    (mulf (subf (broadcast S256x1024 (Scalar.ofBits (F := Ideal) .f32 0x3F800000#32))
        (logistic (extractStridedSlice S256x1024 ![0, 1024] (gateV S W1 B1) slices_S256x2048_o0_1024_S256x1024)))
      (tanh (addf (extractStridedSlice S256x1024 ![0, 0] (gateV S W2 B2) slices_S256x2048_o0_0_S256x1024)
        (mulf (logistic (extractStridedSlice S256x1024 ![0, 0] (gateV S W1 B1) slices_S256x2048_o0_0_S256x1024))
          (extractStridedSlice S256x1024 ![0, 1024] (gateV S W2 B2) slices_S256x2048_o0_1024_S256x1024)))))
    (mulf (logistic (extractStridedSlice S256x1024 ![0, 1024] (gateV S W1 B1) slices_S256x2048_o0_1024_S256x1024)) S)

/-- The error gate's weighted row sums, as a column. -/
def errPre (S : FVec Ideal S256x1024 .f32) (WE : FVec Ideal S1x1024 .f32) : FVec Ideal S256x1 .f32 :=
  shapeCast S256x1 (multiReduction (F := Ideal) .add [1] S256 (mulf S (broadcastTo S256x1024 WE broadcasts_S1x1024_S256x1024))
    0x00000000#32 reduces_S256x1024_S256 (.inl rfl) rfl) shapeCasts_S256_S256x1

/-- The error gate, one number per row. -/
def errV (S : FVec Ideal S256x1024 .f32) (WE : FVec Ideal S1x1024 .f32) (BE : FVec Ideal S1x1 .f32) : FVec Ideal S256x1 .f32 :=
  logistic (addf (errPre S WE) (broadcastTo S256x1 BE broadcasts_S1x1_S256x1))

/-- The new state: the old one and the candidate mixed by the row's error gate. -/
def mixV (S N : FVec Ideal S256x1024 .f32) (E : FVec Ideal S256x1 .f32) : FVec Ideal S256x1024 .f32 :=
  addf
    (mulf (subf (broadcast S256x1024 (Scalar.ofBits (F := Ideal) .f32 0x3F800000#32))
      (broadcastTo S256x1024 (shapeCast S256x1 E shapeCasts_S256x1_S256x1) broadcasts_S256x1_S256x1024)) S)
    (mulf (broadcastTo S256x1024 (shapeCast S256x1 E shapeCasts_S256x1_S256x1) broadcasts_S256x1_S256x1024) N)

/-- One pass. -/
def stepV (S : FVec Ideal S256x1024 .f32) (W1 : FVec Ideal S1024x2048 .bf16) (B1 : FVec Ideal S1x2048 .f32)
    (W2 : FVec Ideal S1024x2048 .bf16) (B2 : FVec Ideal S1x2048 .f32) (WE : FVec Ideal S1x1024 .f32) (BE : FVec Ideal S1x1 .f32) :
    FVec Ideal S256x1024 .f32 :=
  mixV S (gruV S W1 B1 W2 B2) (errV S WE BE)

/-! ## The payloads are two passes -/

theorem pay2_eq (v0 : FVec Ideal S256x1024 .f32) : k0_pay2 (F := Ideal) v0 = v0 := shapeCast_self _ _
theorem pay8_eq (v : FVec Ideal S1x1 .f32) : k0_pay8 (F := Ideal) v = v := shapeCast_self _ _

theorem pay3_eq (v0 : FVec Ideal S256x1024 .f32) (v3 : FVec Ideal S1024x2048 .bf16) (v6 : FVec Ideal S1x2048 .f32)
    (v14 : FVec Ideal S1024x2048 .bf16) (v17 : FVec Ideal S1x2048 .f32) :
    k0_pay3 (F := Ideal) v0 v3 v6 v14 v17 = gruV (k0_pay2 (F := Ideal) v0) v3 v6 v14 v17 := rfl

theorem pay4_eq (v0 : FVec Ideal S256x1024 .f32) (v31 : FVec Ideal S1x1024 .f32) (v36 : FVec Ideal S1x1 .f32) :
    k0_pay4 (F := Ideal) v0 v31 v36 = errV (k0_pay2 (F := Ideal) v0) v31 (k0_pay8 (F := Ideal) v36) := rfl

theorem pay5_eq (v1 v30 : FVec Ideal S256x1024 .f32) (v40 : FVec Ideal S256x1 .f32) :
    k0_pay5 (F := Ideal) v1 v30 v40 = mixV v1 v30 v40 := rfl

theorem pay6_eq (v1 v30 : FVec Ideal S256x1024 .f32) (v40 : FVec Ideal S256x1 .f32) (v49 : FVec Ideal S1024x2048 .bf16)
    (v52 : FVec Ideal S1x2048 .f32) (v60 : FVec Ideal S1024x2048 .bf16) (v63 : FVec Ideal S1x2048 .f32) :
    k0_pay6 (F := Ideal) v1 v30 v40 v49 v52 v60 v63 = gruV (k0_pay5 (F := Ideal) v1 v30 v40) v49 v52 v60 v63 := rfl

theorem pay7_eq (v1 v30 : FVec Ideal S256x1024 .f32) (v40 : FVec Ideal S256x1 .f32) (v77 : FVec Ideal S1x1024 .f32) :
    k0_pay7 (F := Ideal) v1 v30 v40 v77 = errPre (k0_pay5 (F := Ideal) v1 v30 v40) v77 := rfl

theorem pay1_eq (v47 v76 : FVec Ideal S256x1024 .f32) (v81 : FVec Ideal S256x1 .f32) (v83 : FVec Ideal S1x1 .f32) :
    k0_pay1 (F := Ideal) v47 v76 v81 v83 = mixV v47 v76 (logistic (addf v81 (broadcastTo S256x1 v83 broadcasts_S1x1_S256x1))) := rfl

/-- The stored block is two passes over the loaded one. -/
theorem payload_eq (x0 : FVec Ideal S256x1024 .f32) (x1 x2 : FVec Ideal S1024x2048 .bf16) (x3 x4 : FVec Ideal S1x2048 .f32)
    (x5 : FVec Ideal S1x1024 .f32) (x6 : FVec Ideal S1x1 .f32) :
    k0_pay1 (F := Ideal) (k0_pay5 (k0_pay2 x0) (k0_pay3 x0 x1 x3 x2 x4) (k0_pay4 x0 x5 x6))
        (k0_pay6 (k0_pay2 x0) (k0_pay3 x0 x1 x3 x2 x4) (k0_pay4 x0 x5 x6) x1 x3 x2 x4)
        (k0_pay7 (k0_pay2 x0) (k0_pay3 x0 x1 x3 x2 x4) (k0_pay4 x0 x5 x6) x5) (k0_pay8 x6)
      = stepV (stepV x0 x1 x3 x2 x4 x5 x6) x1 x3 x2 x4 x5 x6 := by
  rw [pay1_eq, pay6_eq, pay7_eq, pay5_eq, pay3_eq, pay4_eq, pay2_eq, pay8_eq]
  rfl

/-! ## One pass at an index -/

theorem gateV_apply (S : FVec Ideal S256x1024 .f32) (W : FVec Ideal S1024x2048 .bf16) (B : FVec Ideal S1x2048 .f32)
    (p : Fin 256) (j : Fin 2048) : gateV S W B (ix2 p j) = dotb (rowAt S p) (colsOf W j) (rowOf B j) := by
  unfold gateV
  rw [shapeCast_self, shapeCast_self]
  show matmul MM none (truncf .bf16 S bitsLt_bf16_f32) W (constant S256x2048 .f32 0x00000000#32) (ix2 p j)
    + broadcastTo S256x2048 B broadcasts_S1x2048_S256x2048 (ix2 p j) = _
  rw [mm_apply, broadcastTo_1b_ab_apply]
  rfl

theorem errV_apply (S : FVec Ideal S256x1024 .f32) (WE : FVec Ideal S1x1024 .f32) (BE : FVec Ideal S1x1 .f32) (p : Fin 256) :
    errV S WE BE (ix2 p (0 : Fin 1)) = Ideal.logistic (dotb (rowAt S p) (weOf WE) (beOf BE)) := by
  unfold errV errPre
  show Ideal.logistic (shapeCast S256x1 _ shapeCasts_S256_S256x1 (ix2 p (0 : Fin 1))
    + broadcastTo S256x1 BE broadcasts_S1x1_S256x1 (ix2 p (0 : Fin 1))) = _
  rw [col_apply, lane_apply, broadcastTo_1b_ab_apply]
  refine congrArg Ideal.logistic (congrArg (· + _) (Finset.sum_congr rfl fun k _ => ?_))
  show S (ix2 p k) * broadcastTo S256x1024 WE broadcasts_S1x1024_S256x1024 (ix2 p k) = _
  rw [broadcastTo_1b_ab_apply]
  rfl

theorem mixV_apply (S N : FVec Ideal S256x1024 .f32) (E : FVec Ideal S256x1 .f32) (p : Fin 256) (q : Fin 1024) :
    mixV S N E (ix2 p q) = (1 - E (ix2 p (0 : Fin 1))) * S (ix2 p q) + E (ix2 p (0 : Fin 1)) * N (ix2 p q) := by
  unfold mixV
  rw [shapeCast_self]
  show (Ideal.ofBits .f32 0x3F800000#32 - broadcastTo S256x1024 E broadcasts_S256x1_S256x1024 (ix2 p q)) * S (ix2 p q)
    + broadcastTo S256x1024 E broadcasts_S256x1_S256x1024 (ix2 p q) * N (ix2 p q) = _
  rw [colBcast_apply, one_f32]

theorem gruV_apply (S : FVec Ideal S256x1024 .f32) (W1 : FVec Ideal S1024x2048 .bf16) (B1 : FVec Ideal S1x2048 .f32)
    (W2 : FVec Ideal S1024x2048 .bf16) (B2 : FVec Ideal S1x2048 .f32) (p : Fin 256) (q : Fin 1024) :
    gruV S W1 B1 W2 B2 (ix2 p q)
      = (1 - Ideal.logistic (dotb (rowAt S p) (colsOf W1 (hi q)) (rowOf B1 (hi q))))
          * Ideal.tanh (dotb (rowAt S p) (colsOf W2 (lo q)) (rowOf B2 (lo q))
            + Ideal.logistic (dotb (rowAt S p) (colsOf W1 (lo q)) (rowOf B1 (lo q))) * dotb (rowAt S p) (colsOf W2 (hi q)) (rowOf B2 (hi q)))
        + Ideal.logistic (dotb (rowAt S p) (colsOf W1 (hi q)) (rowOf B1 (hi q))) * S (ix2 p q) := by
  unfold gruV
  show (Ideal.ofBits .f32 0x3F800000#32
        - Ideal.logistic (extractStridedSlice S256x1024 ![0, 1024] (gateV S W1 B1) slices_S256x2048_o0_1024_S256x1024 (ix2 p q)))
      * Ideal.tanh (extractStridedSlice S256x1024 ![0, 0] (gateV S W2 B2) slices_S256x2048_o0_0_S256x1024 (ix2 p q)
        + Ideal.logistic (extractStridedSlice S256x1024 ![0, 0] (gateV S W1 B1) slices_S256x2048_o0_0_S256x1024 (ix2 p q))
          * extractStridedSlice S256x1024 ![0, 1024] (gateV S W2 B2) slices_S256x2048_o0_1024_S256x1024 (ix2 p q))
    + Ideal.logistic (extractStridedSlice S256x1024 ![0, 1024] (gateV S W1 B1) slices_S256x2048_o0_1024_S256x1024 (ix2 p q)) * S (ix2 p q) = _
  rw [sliceHi_apply, sliceHi_apply, sliceLo_apply, sliceLo_apply, gateV_apply, gateV_apply, gateV_apply, gateV_apply, one_f32]

/-- ONE PASS, at row `p` and column `q`, is the fused step of row `p`. -/
theorem stepV_apply (S : FVec Ideal S256x1024 .f32) (W1 : FVec Ideal S1024x2048 .bf16) (B1 : FVec Ideal S1x2048 .f32)
    (W2 : FVec Ideal S1024x2048 .bf16) (B2 : FVec Ideal S1x2048 .f32) (WE : FVec Ideal S1x1024 .f32) (BE : FVec Ideal S1x1 .f32)
    (p : Fin 256) (q : Fin 1024) :
    stepV S W1 B1 W2 B2 WE BE (ix2 p q)
      = rowK (colsOf W1) (colsOf W2) (rowOf B1) (rowOf B2) (weOf WE) (beOf BE) (rowAt S p) q := by
  unfold stepV
  rw [mixV_apply, gruV_apply, errV_apply]
  rfl

/-- Row `p` of a pass is the fused step of row `p`. -/
theorem rowAt_stepV (S : FVec Ideal S256x1024 .f32) (W1 : FVec Ideal S1024x2048 .bf16) (B1 : FVec Ideal S1x2048 .f32)
    (W2 : FVec Ideal S1024x2048 .bf16) (B2 : FVec Ideal S1x2048 .f32) (WE : FVec Ideal S1x1024 .f32) (BE : FVec Ideal S1x1 .f32)
    (p : Fin 256) :
    rowAt (stepV S W1 B1 W2 B2 WE BE) p
      = rowK (colsOf W1) (colsOf W2) (rowOf B1) (rowOf B2) (weOf WE) (beOf BE) (rowAt S p) :=
  funext fun q => stepV_apply S W1 B1 W2 B2 WE BE p q

end Cert.KernelIdeal.Block

end
-- ==== Proof.KernelValue.lean ====
/-
  The kernel's program, run: what its result array holds.

  The host lines before the region prepare the region's operands from the arguments: the state as 32768 rows, the summed
  and transposed r/z weights, the stacked and transposed n weights, the summed and the stacked biases as rows.  Each of
  the 128 grid points loads rows 256 t … 256 t + 255 of the state and the whole of every other operand, and writes back
  two passes over those rows; the 128 blocks tile the result.  The host line after the region re-reads the result as
  [8, 4096, 1024].
-/
import proofs.«136685_j46291157516382_2_alg».proof.Proof.Gen.KernelIdeal.Frame
import proofs.«136685_j46291157516382_2_alg».proof.Proof.KernelBlock
import Idealize.ShloMosaic.Lib.StableHlo.Run
import Idealize.ShloMosaic.Lib.Pipeline.Value

set_option maxRecDepth 16384

noncomputable section

open scoped BigOperators

namespace Cert.KernelIdeal.Run

open Cert.KernelIdeal Cert.KernelIdeal.Gen Cert.KernelIdeal.Block Idealize.ShloMosaic Idealize.ShloMosaic.TcCoe
open Idealize.ShloMosaic.ValueIdx Idealize.SL.Sem Idealize.ShloMosaic.StableHlo Cert.Gru
open Idealize.ShloMosaic.Pipeline (Dat Cfg Window)

variable (m : (ℓ : Loc nD τ sig) → Buf (Elt Ideal) ℓ) (ρ : Dev nD → PrngReg)

/-! ## The arguments, typed -/

abbrev a0 (c : Dev nD) : FVec Ideal S8x4096x1024 .f32 := m ((c : Thread nD τ).loc main_arg0)
abbrev a1 (c : Dev nD) : FVec Ideal S3072x1024 .f32 := m ((c : Thread nD τ).loc main_arg1)
abbrev a2 (c : Dev nD) : FVec Ideal S3072x1024 .f32 := m ((c : Thread nD τ).loc main_arg2)
abbrev a3 (c : Dev nD) : FVec Ideal S3072 .f32 := m ((c : Thread nD τ).loc main_arg3)
abbrev a4 (c : Dev nD) : FVec Ideal S3072 .f32 := m ((c : Thread nD τ).loc main_arg4)
abbrev a5 (c : Dev nD) : FVec Ideal S1x1024 .f32 := m ((c : Thread nD τ).loc main_arg5)
abbrev a6 (c : Dev nD) : FVec Ideal S1 .f32 := m ((c : Thread nD τ).loc main_arg6)

/-! ## The operands as the region finds them -/

/-- The state: the first argument re-read as 32768 rows. -/
def state0 (c : Dev nD) : FVec Ideal S32768x1024 .f32 :=
  shapeCast S32768x1024 (a0 m c) shapeCasts_S8x4096x1024_S32768x1024

theorem V_state (c : Dev nD) : (V m c main_v0 : S32768x1024.Idx → EReal) = state0 m c := by
  show StableHlo.after hostOps0 (fun b => m (c, b)) (Proc.devRef .tc main_v0) = _
  after_results <;> rfl

/-- The fused r/z weights: the two weight matrices' first 2048 rows, summed and transposed. -/
theorem V_w1 (c : Dev nD) : (V m c main_v5 : S1024x2048.Idx → EReal)
    = truncf (F := Ideal) .bf16 (transpose S1024x2048 [1, 0]
        (addf (F := Ideal) (φ := .f32) (extractStridedSlice S2048x1024 ![0, 0] (a1 m c) slices_S3072x1024_S2048x1024_0_0)
          (extractStridedSlice S2048x1024 ![0, 0] (a2 m c) slices_S3072x1024_S2048x1024_0_0))
        transposes_S2048x1024_S1024x2048_1_0) bitsLt_bf16_f32 := by
  show StableHlo.after hostOps0 (fun b => m (c, b)) (Proc.devRef .tc main_v5) = _
  after_results <;> rfl

/-- The fused r/z biases: the two bias vectors' first 2048 entries, summed, as a row. -/
theorem V_b1 (c : Dev nD) : (V m c main_v9 : S1x2048.Idx → EReal)
    = shapeCast S1x2048 (addf (F := Ideal) (φ := .f32) (extractStridedSlice S2048 ![0] (a3 m c) slices_S3072_S2048_0)
        (extractStridedSlice S2048 ![0] (a4 m c) slices_S3072_S2048_0)) shapeCasts_S2048_S1x2048 := by
  show StableHlo.after hostOps0 (fun b => m (c, b)) (Proc.devRef .tc main_v9) = _
  after_results <;> rfl

/-- The stacked n weights: the two weight matrices' last 1024 rows, one block after the other, transposed. -/
theorem V_w2 (c : Dev nD) : (V m c main_v14 : S1024x2048.Idx → EReal)
    = truncf (F := Ideal) .bf16 (transpose S1024x2048 [1, 0]
        (concatenate S2048x1024 0 [⟨S1024x1024, extractStridedSlice S1024x1024 ![2048, 0] (a1 m c) slices_S3072x1024_S1024x1024_2048_0⟩,
          ⟨S1024x1024, extractStridedSlice S1024x1024 ![2048, 0] (a2 m c) slices_S3072x1024_S1024x1024_2048_0⟩]
          concatenates_S1024x1024_S1024x1024_S2048x1024_d0 : FVec Ideal S2048x1024 .f32)
        transposes_S2048x1024_S1024x2048_1_0) bitsLt_bf16_f32 := by
  show StableHlo.after hostOps0 (fun b => m (c, b)) (Proc.devRef .tc main_v14) = _
  after_results <;> rfl

/-- The stacked n biases, as a row. -/
theorem V_b2 (c : Dev nD) : (V m c main_v18 : S1x2048.Idx → EReal)
    = shapeCast S1x2048 (concatenate S2048 0 [⟨S1024, extractStridedSlice S1024 ![2048] (a3 m c) slices_S3072_S1024_2048⟩,
          ⟨S1024, extractStridedSlice S1024 ![2048] (a4 m c) slices_S3072_S1024_2048⟩]
          concatenates_S1024_S1024_S2048_d0 : FVec Ideal S2048 .f32) shapeCasts_S2048_S1x2048 := by
  show StableHlo.after hostOps0 (fun b => m (c, b)) (Proc.devRef .tc main_v18) = _
  after_results <;> rfl

/-- The error gate's bias as a [1,1] array. -/
theorem V_be (c : Dev nD) : (V m c main_v19 : S1x1.Idx → EReal) = shapeCast S1x1 (a6 m c) shapeCasts_S1_S1x1 := by
  show StableHlo.after hostOps0 (fun b => m (c, b)) (Proc.devRef .tc main_v19) = _
  after_results <;> rfl

/-- The error gate's weights: the sixth argument, untouched. -/
theorem V_we (c : Dev nD) : (V m c main_arg5 : S1x1024.Idx → EReal) = a5 m c := V_main_arg5 m c

/-! ## What a grid point writes back -/

theorem hz : (![0, 0] : Fin 2 → Nat) = fun _ => 0 := funext fun a => by fin_cases a <;> rfl

/-- What the body leaves in the output block: two passes over the loaded one. -/
theorem out_eq (x0 : Vec Ideal S256x1024 .f32) (x1 x2 : Vec Ideal S1024x2048 .bf16) (x3 x4 : Vec Ideal S1x2048 .f32)
    (x5 : Vec Ideal S1x1024 .f32) (x6 : Vec Ideal S1x1 .f32) :
    out0_7 x0 x1 x2 x3 x4 x5 x6 = stepV (stepV x0 x1 x3 x2 x4 x5 x6) x1 x3 x2 x4 x5 x6 := by
  unfold out0_7
  rw [View.canon_unit_zero hz]
  simp only [View.ld_unit_zero (S := S256x1024) hz, View.ld_unit_zero (S := S1024x2048) hz, View.ld_unit_zero (S := S1x2048) hz,
    View.ld_unit_zero (S := S1x1024) hz, View.ld_unit_zero (S := S1x1) hz]
  exact payload_eq x0 x1 x2 x3 x4 x5 x6

/-- Two passes at an entry of the block: row `y 0` stepped twice, read at column `y 1`. -/
theorem block_entry (X0 : FVec Ideal S256x1024 .f32) (X1 X2 : FVec Ideal S1024x2048 .bf16) (X3 X4 : FVec Ideal S1x2048 .f32)
    (X5 : FVec Ideal S1x1024 .f32) (X6 : FVec Ideal S1x1 .f32) (y : S256x1024.Idx) :
    stepV (stepV X0 X1 X3 X2 X4 X5 X6) X1 X3 X2 X4 X5 X6 y
      = rowK (colsOf X1) (colsOf X2) (rowOf X3) (rowOf X4) (weOf X5) (beOf X6)
          (rowK (colsOf X1) (colsOf X2) (rowOf X3) (rowOf X4) (weOf X5) (beOf X6) (rowAt X0 (y 0))) (y 1) := by
  obtain ⟨p, q, rfl⟩ : ∃ (p : Fin 256) (q : Fin 1024), y = ix2 p q := ⟨y 0, y 1, eq_ix2 y⟩
  rw [stepV_apply, rowAt_stepV]

/-- One step of a row with the operands as the region finds them. -/
def kstep (c : Dev nD) (s : Fin 1024 → EReal) : Fin 1024 → EReal :=
  rowK (colsOf (V m c main_v5)) (colsOf (V m c main_v14)) (rowOf (V m c main_v9)) (rowOf (V m c main_v18))
    (weOf (V m c main_arg5)) (beOf (V m c main_v19)) s

/-- THE RESULT ARRAY: every row of the state stepped twice. -/
def result (c : Dev nD) : S32768x1024.Idx → EReal := fun i =>
  kstep m c (kstep m c (fun k => (V m c main_v0 : S32768x1024.Idx → EReal) (ix2 (i 0) k))) (i 1)

/-- The index maps over the grid: the state's and the result's block moves down one block of rows per point; every other
    operand's block is the whole array at every point. -/
theorem idx_facts : ∀ t : Fin cfg0.N,
    (win0_0.index t (0 : Fin 2) = t.val ∧ win0_0.index t (1 : Fin 2) = 0)
    ∧ (win0_7.index t (0 : Fin 2) = t.val ∧ win0_7.index t (1 : Fin 2) = 0)
    ∧ (win0_1.index t (0 : Fin 2) = 0 ∧ win0_1.index t (1 : Fin 2) = 0)
    ∧ (win0_2.index t (0 : Fin 2) = 0 ∧ win0_2.index t (1 : Fin 2) = 0)
    ∧ (win0_3.index t (0 : Fin 2) = 0 ∧ win0_3.index t (1 : Fin 2) = 0)
    ∧ (win0_4.index t (0 : Fin 2) = 0 ∧ win0_4.index t (1 : Fin 2) = 0)
    ∧ (win0_5.index t (0 : Fin 2) = 0 ∧ win0_5.index t (1 : Fin 2) = 0)
    ∧ (win0_6.index t (0 : Fin 2) = 0 ∧ win0_6.index t (1 : Fin 2) = 0) :=
  (by decide +kernel : ∀ t : Fin grid0.N, _)

/-- Each operand other than the state is loaded whole at every point. -/
theorem iblk1 (c : Dev nD) (t : Fin cfg0.N) : (iblk m c 1 t : S1024x2048.Idx → EReal) = V m c main_v5 := by
  obtain ⟨-, -, ⟨e0, e1⟩, -⟩ := idx_facts t
  funext x
  unfold iblk
  rw [View.read_apply]
  show V m c main_v5 _ = V m c main_v5 x
  refine congrArg _ (funext fun a => Fin.ext ?_)
  match a with
  | ⟨0, _⟩ => show win0_1.index t (0 : Fin 2) * 1024 + 1 * (x 0).val = (x 0).val; rw [e0]; omega
  | ⟨1, _⟩ => show win0_1.index t (1 : Fin 2) * 2048 + 1 * (x 1).val = (x 1).val; rw [e1]; omega
theorem iblk2 (c : Dev nD) (t : Fin cfg0.N) : (iblk m c 2 t : S1024x2048.Idx → EReal) = V m c main_v14 := by
  obtain ⟨-, -, -, ⟨e0, e1⟩, -⟩ := idx_facts t
  funext x
  unfold iblk
  rw [View.read_apply]
  show V m c main_v14 _ = V m c main_v14 x
  refine congrArg _ (funext fun a => Fin.ext ?_)
  match a with
  | ⟨0, _⟩ => show win0_2.index t (0 : Fin 2) * 1024 + 1 * (x 0).val = (x 0).val; rw [e0]; omega
  | ⟨1, _⟩ => show win0_2.index t (1 : Fin 2) * 2048 + 1 * (x 1).val = (x 1).val; rw [e1]; omega
theorem iblk3 (c : Dev nD) (t : Fin cfg0.N) : (iblk m c 3 t : S1x2048.Idx → EReal) = V m c main_v9 := by
  obtain ⟨-, -, -, -, ⟨e0, e1⟩, -⟩ := idx_facts t
  funext x
  unfold iblk
  rw [View.read_apply]
  show V m c main_v9 _ = V m c main_v9 x
  refine congrArg _ (funext fun a => Fin.ext ?_)
  match a with
  | ⟨0, _⟩ => show win0_3.index t (0 : Fin 2) * 1 + 1 * (x 0).val = (x 0).val; rw [e0]; omega
  | ⟨1, _⟩ => show win0_3.index t (1 : Fin 2) * 2048 + 1 * (x 1).val = (x 1).val; rw [e1]; omega
theorem iblk4 (c : Dev nD) (t : Fin cfg0.N) : (iblk m c 4 t : S1x2048.Idx → EReal) = V m c main_v18 := by
  obtain ⟨-, -, -, -, -, ⟨e0, e1⟩, -⟩ := idx_facts t
  funext x
  unfold iblk
  rw [View.read_apply]
  show V m c main_v18 _ = V m c main_v18 x
  refine congrArg _ (funext fun a => Fin.ext ?_)
  match a with
  | ⟨0, _⟩ => show win0_4.index t (0 : Fin 2) * 1 + 1 * (x 0).val = (x 0).val; rw [e0]; omega
  | ⟨1, _⟩ => show win0_4.index t (1 : Fin 2) * 2048 + 1 * (x 1).val = (x 1).val; rw [e1]; omega
theorem iblk5 (c : Dev nD) (t : Fin cfg0.N) : (iblk m c 5 t : S1x1024.Idx → EReal) = V m c main_arg5 := by
  obtain ⟨-, -, -, -, -, -, ⟨e0, e1⟩, -⟩ := idx_facts t
  funext x
  unfold iblk
  rw [View.read_apply]
  show V m c main_arg5 _ = V m c main_arg5 x
  refine congrArg _ (funext fun a => Fin.ext ?_)
  match a with
  | ⟨0, _⟩ => show win0_5.index t (0 : Fin 2) * 1 + 1 * (x 0).val = (x 0).val; rw [e0]; omega
  | ⟨1, _⟩ => show win0_5.index t (1 : Fin 2) * 1024 + 1 * (x 1).val = (x 1).val; rw [e1]; omega
theorem iblk6 (c : Dev nD) (t : Fin cfg0.N) : (iblk m c 6 t : S1x1.Idx → EReal) = V m c main_v19 := by
  obtain ⟨-, -, -, -, -, -, -, ⟨e0, e1⟩⟩ := idx_facts t
  funext x
  unfold iblk
  rw [View.read_apply]
  show V m c main_v19 _ = V m c main_v19 x
  refine congrArg _ (funext fun a => Fin.ext ?_)
  match a with
  | ⟨0, _⟩ => show win0_6.index t (0 : Fin 2) * 1 + 1 * (x 0).val = (x 0).val; rw [e0]; omega
  | ⟨1, _⟩ => show win0_6.index t (1 : Fin 2) * 1 + 1 * (x 1).val = (x 1).val; rw [e1]; omega

/-- The state's block at point `t` is rows `256 t … 256 t + 255`. -/
theorem iblk0_apply (c : Dev nD) (t : Fin cfg0.N) (x : S256x1024.Idx) (k : S32768x1024.Idx)
    (hk0 : (k 0).val = t.val * 256 + (x 0).val) (hk1 : (k 1).val = (x 1).val) :
    (iblk m c 0 t : S256x1024.Idx → EReal) x = V m c main_v0 k := by
  obtain ⟨⟨e0, e1⟩, -⟩ := idx_facts t
  unfold iblk
  rw [View.read_apply]
  show V m c main_v0 _ = V m c main_v0 k
  refine congrArg _ (funext fun a => Fin.ext ?_)
  match a with
  | ⟨0, _⟩ => show win0_0.index t (0 : Fin 2) * 256 + 1 * (x 0).val = (k 0).val; rw [e0, hk0]; omega
  | ⟨1, _⟩ => show win0_0.index t (1 : Fin 2) * 1024 + 1 * (x 1).val = (k 1).val; rw [e1, hk1]; omega

/-- WHAT POINT `t` WRITES BACK is block `t` of `result`. -/
theorem flushed_eq (c : Dev nD) (t : Fin cfg0.N) (hf : (cfg0.win 7).flush t = true) :
    (dats m 0 c).flushed 7 t = ((cfg0.win 7).blk t).view.read (Elt Ideal) (result m c) := by
  obtain ⟨-, ⟨e0, e1⟩, -⟩ := idx_facts t
  show (cfg0.win 7).cut (grid0.coords t) ((dats m 0 c).after 7 t) = _
  rw [after0_7, out_eq]
  funext y
  rw [View.read_apply]
  refine (block_entry _ _ _ _ _ _ _ y).trans ?_
  rw [iblk1, iblk2, iblk3, iblk4, iblk5, iblk6]
  unfold result kstep
  have hy0 : (y 0).val < 256 := (y 0).isLt
  have hy1 : (y 1).val < 1024 := (y 1).isLt
  have hr : rowAt (iblk m c 0 t) (y 0)
      = fun k => (V m c main_v0 : S32768x1024.Idx → EReal) (ix2 ((((cfg0.win 7).blk t).view.emb y) 0) k) := funext fun k => by
    refine iblk0_apply m c t (ix2 (y 0) k) _ ?_ rfl
    show win0_7.index t (0 : Fin 2) * 256 + 1 * (y 0).val = t.val * 256 + (y 0).val
    rw [e0]; omega
  have hc : (y 1 : Fin 1024) = (((cfg0.win 7).blk t).view.emb y) 1 := Fin.ext (by
    show (y 1).val = win0_7.index t (1 : Fin 2) * 1024 + 1 * (y 1).val
    rw [e1]; omega)
  rw [hr, hc]
  exact (cast_eq _ _).symm

/-- An index of the result is in point `t`'s block iff each coordinate is in the block's range. -/
theorem mem_blk (t : Fin cfg0.N) (i : S32768x1024.Idx) :
    i ∈ ((cfg0.win 7).blk t).view.set ↔ ∀ a : Fin 2, win0_7.index t a * S256x1024.size a ≤ (i a).val
      ∧ (i a).val < win0_7.index t a * S256x1024.size a + S256x1024.size a := by
  show i ∈ ((View.whole main_v20).slice (win0_7.rect t)).set ↔ _
  rw [View.set_slice_whole, Rect.mem_set_unit]
  exact Iff.rfl

/-- The 128 blocks of 256 rows tile the result: row `r` is in the block of point `r / 256`. -/
theorem cover (i : S32768x1024.Idx) :
    ∃ t : Fin cfg0.N, (cfg0.win 7).flush t = true ∧ i ∈ ((cfg0.win 7).blk t).view.set := by
  have h0 : (i 0).val < 32768 := (i 0).isLt
  have h1 : (i 1).val < 1024 := (i 1).isLt
  have hlt : (i 0).val / 256 < cfg0.N := lt_of_lt_of_eq (by omega : (i 0).val / 256 < 128) N_0.symm
  obtain ⟨-, ⟨e0, e1⟩, -⟩ := idx_facts ⟨(i 0).val / 256, hlt⟩
  have e0' : win0_7.index ⟨(i 0).val / 256, hlt⟩ (0 : Fin 2) = (i 0).val / 256 := e0
  refine ⟨⟨(i 0).val / 256, hlt⟩, flush0_7 _, ?_⟩
  rw [mem_blk]
  intro a
  match a with
  | ⟨0, _⟩ =>
    show win0_7.index ⟨(i 0).val / 256, hlt⟩ (0 : Fin 2) * 256 ≤ (i 0).val
      ∧ (i 0).val < win0_7.index ⟨(i 0).val / 256, hlt⟩ (0 : Fin 2) * 256 + 256
    rw [e0']; omega
  | ⟨1, _⟩ =>
    show win0_7.index ⟨(i 0).val / 256, hlt⟩ (1 : Fin 2) * 1024 ≤ (i 1).val
      ∧ (i 1).val < win0_7.index ⟨(i 0).val / 256, hlt⟩ (1 : Fin 2) * 1024 + 1024
    rw [e1]; omega

/-- THE ARRAY after the region: `result`. -/
theorem final (c : Dev nD) : (dats m 0 c).arrAt 7 cfg0.N = result m c :=
  (dats m 0 c).arrAt_eq_of_cover 7 (result m c) (flushed_eq m c) cover

/-! ## The operands, in the arguments' entries -/

/-- Fused r/z weights: column `j`, row `k` is the sum of the two weight matrices' entries at gate row `j`. -/
theorem w1_apply (c : Dev nD) (j : Fin 2048) (k : Fin 1024) :
    colsOf (V m c main_v5) j k = a1 m c (ix2 (up j) k) + a2 m c (ix2 (up j) k) := by
  show (V m c main_v5 : S1024x2048.Idx → EReal) (ix2 k j) = _
  rw [V_w1, truncf_apply, transpose_ix2_apply]
  show extractStridedSlice S2048x1024 ![0, 0] (a1 m c) slices_S3072x1024_S2048x1024_0_0 (ix2 j k)
    + extractStridedSlice S2048x1024 ![0, 0] (a2 m c) slices_S3072x1024_S2048x1024_0_0 (ix2 j k) = _
  have e : ∀ x : FVec Ideal S3072x1024 .f32,
      extractStridedSlice S2048x1024 ![0, 0] x slices_S3072x1024_S2048x1024_0_0 (ix2 j k) = x (ix2 (up j) k) := fun x =>
    extractStridedSlice_apply _ x _ (ix2 j k) (ix2 (up j) k) fun a => by
      match a with
      | ⟨0, _⟩ => show j.val = 0 + j.val; omega
      | ⟨1, _⟩ => show k.val = 0 + k.val; omega
  rw [e, e]

/-- Fused r/z biases. -/
theorem b1_apply (c : Dev nD) (j : Fin 2048) :
    rowOf (V m c main_v9) j = a3 m c (ix1 (up j)) + a4 m c (ix1 (up j)) := by
  show (V m c main_v9 : S1x2048.Idx → EReal) (ix2 (0 : Fin 1) j) = _
  rw [V_b1, shapeCast_a_1a_apply]
  show extractStridedSlice S2048 ![0] (a3 m c) slices_S3072_S2048_0 (ix1 j)
    + extractStridedSlice S2048 ![0] (a4 m c) slices_S3072_S2048_0 (ix1 j) = _
  have e : ∀ x : FVec Ideal S3072 .f32, extractStridedSlice S2048 ![0] x slices_S3072_S2048_0 (ix1 j) = x (ix1 (up j)) := fun x =>
    extractStridedSlice_apply _ x _ (ix1 j) (ix1 (up j)) fun a => by
      match a with
      | ⟨0, _⟩ => show j.val = 0 + j.val; omega
  rw [e, e]

/-- Stacked n weights, first half: the first weight matrix's last 1024 gate rows. -/
theorem w2lo_apply (c : Dev nD) (q k : Fin 1024) : colsOf (V m c main_v14) (lo q) k = a1 m c (ix2 (g2 q) k) := by
  show (V m c main_v14 : S1024x2048.Idx → EReal) (ix2 k (lo q)) = _
  rw [V_w2, truncf_apply, transpose_ix2_apply]
  refine (concatenate_pair_apply_left (t := S2048x1024) (s₁ := S1024x1024) (s₂ := S1024x1024) (0 : Fin 2) _ _ concatenates_S1024x1024_S1024x1024_S2048x1024_d0 (ix2 (lo q) k) rfl (ix2 q k)
    (fun b => by match b with | ⟨0, _⟩ => rfl | ⟨1, _⟩ => rfl)).trans ?_
  exact extractStridedSlice_apply _ (a1 m c) _ (ix2 q k) (ix2 (g2 q) k) fun a => by
    match a with
    | ⟨0, _⟩ => rfl
    | ⟨1, _⟩ => show k.val = 0 + k.val; omega

/-- Stacked n weights, second half: the second weight matrix's last 1024 gate rows. -/
theorem w2hi_apply (c : Dev nD) (q k : Fin 1024) : colsOf (V m c main_v14) (hi q) k = a2 m c (ix2 (g2 q) k) := by
  show (V m c main_v14 : S1024x2048.Idx → EReal) (ix2 k (hi q)) = _
  rw [V_w2, truncf_apply, transpose_ix2_apply]
  refine (concatenate_pair_apply_right (t := S2048x1024) (s₁ := S1024x1024) (s₂ := S1024x1024) (0 : Fin 2) _ _ concatenates_S1024x1024_S1024x1024_S2048x1024_d0 (ix2 (hi q) k) rfl rfl (ix2 q k)
    (fun b hb => by
      match b with
      | ⟨0, _⟩ => exact absurd rfl hb
      | ⟨1, _⟩ => rfl)
    (by show q.val + 1024 = 1024 + q.val; omega)).trans ?_
  exact extractStridedSlice_apply _ (a2 m c) _ (ix2 q k) (ix2 (g2 q) k) fun a => by
    match a with
    | ⟨0, _⟩ => rfl
    | ⟨1, _⟩ => show k.val = 0 + k.val; omega

/-- Stacked n biases, first half. -/
theorem b2lo_apply (c : Dev nD) (q : Fin 1024) : rowOf (V m c main_v18) (lo q) = a3 m c (ix1 (g2 q)) := by
  show (V m c main_v18 : S1x2048.Idx → EReal) (ix2 (0 : Fin 1) (lo q)) = _
  rw [V_b2, shapeCast_a_1a_apply]
  refine (concatenate_pair_apply_left (t := S2048) (s₁ := S1024) (s₂ := S1024) (0 : Fin 1) _ _ concatenates_S1024_S1024_S2048_d0 (ix1 (lo q)) rfl (ix1 q)
    (fun b => by match b with | ⟨0, _⟩ => rfl)).trans ?_
  exact extractStridedSlice_apply _ (a3 m c) _ (ix1 q) (ix1 (g2 q)) fun a => by
    match a with
    | ⟨0, _⟩ => rfl

/-- Stacked n biases, second half. -/
theorem b2hi_apply (c : Dev nD) (q : Fin 1024) : rowOf (V m c main_v18) (hi q) = a4 m c (ix1 (g2 q)) := by
  show (V m c main_v18 : S1x2048.Idx → EReal) (ix2 (0 : Fin 1) (hi q)) = _
  rw [V_b2, shapeCast_a_1a_apply]
  refine (concatenate_pair_apply_right (t := S2048) (s₁ := S1024) (s₂ := S1024) (0 : Fin 1) _ _ concatenates_S1024_S1024_S2048_d0 (ix1 (hi q)) rfl rfl (ix1 q)
    (fun b hb => by
      match b with
      | ⟨0, _⟩ => exact absurd rfl hb)
    (by show q.val + 1024 = 1024 + q.val; omega)).trans ?_
  exact extractStridedSlice_apply _ (a4 m c) _ (ix1 q) (ix1 (g2 q)) fun a => by
    match a with
    | ⟨0, _⟩ => rfl

/-- The error gate's weights and bias are the arguments'. -/
theorem we_apply (c : Dev nD) (k : Fin 1024) : weOf (V m c main_arg5) k = a5 m c (ix2 (0 : Fin 1) k) := by
  show (V m c main_arg5 : S1x1024.Idx → EReal) (ix2 (0 : Fin 1) k) = _
  rw [V_we]
theorem be_apply (c : Dev nD) : beOf (V m c main_v19) = a6 m c (ix1 (0 : Fin 1)) := by
  show (V m c main_v19 : S1x1.Idx → EReal) (ix2 (0 : Fin 1) (0 : Fin 1)) = _
  rw [V_be, shapeCast_a_1a_apply]

/-! ## The host line after the region, and the run -/

/-- @main's result: the region's result array re-read as [8, 4096, 1024]. -/
theorem tail_eq (c : Dev nD) :
    Pipeline.afterTail₀ cfgs (dats m) 0 (V0 m) [hostOps1] c main_v21
      = shapeCast S8x4096x1024 (result m c) shapeCasts_S32768x1024_S8x4096x1024 := by
  unfold Pipeline.afterTail₀
  show StableHlo.after hostOps1 _ (Proc.devRef .tc main_v21) = _
  after_results
  rw [(Pipeline.withArrays_arr spec0 launch0.win.arr_inj c _ _ 7).trans (final m c)]
  rfl

/-- THE KERNEL'S RUN, read: the result at every row stepped twice (re-read as [8, 4096, 1024]), the arguments unchanged. -/
theorem run : θ_run defs (onTc (τ := τ) (main (F := Ideal))) ⟨m, fun _ => 0, ρ⟩ fun r => ∀ c : Dev nD,
      r.2.mem ((c.tc : Thread nD τ).loc main_v21) = shapeCast S8x4096x1024 (result m c) shapeCasts_S32768x1024_S8x4096x1024
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) :=
  (θ_run defs _ _).mono (fun _ h c =>
    ⟨((h c).2 main_v21 (Pipeline.mem_restRefs_of main_v21 (by decide) (by decide))).trans (tail_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c),
      ((h c).1 5).trans (((dats m 0 c).arrAt_in 5 rfl _).trans ((A_eq m c 5).trans (V_main_arg5 m c))),
      ((h c).2 main_arg6 (Pipeline.mem_restRefs_of main_arg6 (by decide) (by decide))).trans (W_main_arg6 m (dats m) c)⟩)
    (run_main m ρ)

end Cert.KernelIdeal.Run

end
-- ==== Proof.RefValue.lean ====
/-
  The reference's program, read: what its state holds after each of the two steps.

  The reference keeps the whole state as 32768 rows and applies the step to all rows at once: the error gate is a
  matrix product with the one-column transpose of its weights plus a broadcast bias through `1 / (1 + e⁻ˣ)`; the gates'
  pre-activations are the products with the two transposed weight matrices plus broadcast biases, cut in three by column
  slices; then the pointwise recurrence.  Read at row `n` and column `q`, every stage is the extended reals' own operation of
  the stages before it at one index, and `1 / (1 + e⁻ˣ)` with the word of `1.0` is the logistic function: after one step the
  state's entry is `Gru.rowR` of row `n` of the state before it.
-/
import proofs.«136685_j46291157516382_2_alg».proof.Proof.Gen.ReferenceIdeal.Read
import proofs.«136685_j46291157516382_2_alg».proof.Proof.Spec
import Idealize.ShloMosaic.Lib.ValueIdx

noncomputable section

open scoped BigOperators

namespace Cert.ReferenceIdeal.RefValue

open Cert.ReferenceIdeal Cert.ReferenceIdeal.Gen Cert.ReferenceIdeal.Read Idealize.ShloMosaic Idealize.ShloMosaic.ValueIdx Cert.Gru

/-! ## The arguments, read by coordinates -/

/-- A [3072,1024] weight matrix, gate row first. -/
def wOf (x : (⟨S3072x1024, .f32⟩ : BufTy).Contents (Elt Ideal)) : Fin 3072 → Fin 1024 → EReal := fun j k => x (ix2 j k)
/-- A bias vector of 3072 entries. -/
def bOf (x : (⟨S3072, .f32⟩ : BufTy).Contents (Elt Ideal)) : Fin 3072 → EReal := fun j => x (ix1 j)
/-- The error gate's [1,1024] weights along their row. -/
def weOf (x : (⟨S1x1024, .f32⟩ : BufTy).Contents (Elt Ideal)) : Fin 1024 → EReal := fun k => x (ix2 (0 : Fin 1) k)
/-- The error gate's bias. -/
def beOf (x : (⟨S1, .f32⟩ : BufTy).Contents (Elt Ideal)) : EReal := x (ix1 (0 : Fin 1))
/-- Row `n` of a state of 32768 rows. -/
def rowOf (S : S32768x1024.Idx → EReal) (n : Fin 32768) : Fin 1024 → EReal := fun k => S (ix2 n k)

/-- `1 / (1 + e⁻ˣ)`, the ones being the word of `1.0`, is the logistic function. -/
theorem sig_eq (x : Ideal .f32) :
    FloatOps.hostDivf (FloatOps.ofBits (F := Ideal) .f32 0x3F800000#32)
      (FloatOps.addf (FloatOps.ofBits (F := Ideal) .f32 0x3F800000#32) (FloatOps.hostUnary .exp (FloatOps.hostNegf x)))
      = Ideal.logistic x := by
  show Ideal.div (Ideal.ofBits .f32 0x3F800000#32) (Ideal.ofBits .f32 0x3F800000#32 + Ideal.exp (-x)) = _
  rw [one_f32]; rfl

variable (x0 : (⟨S8x4096x1024, .f32⟩ : BufTy).Contents (Elt Ideal)) (x1 x2 : (⟨S3072x1024, .f32⟩ : BufTy).Contents (Elt Ideal)) (x3 x4 : (⟨S3072, .f32⟩ : BufTy).Contents (Elt Ideal))
  (x5 : (⟨S1x1024, .f32⟩ : BufTy).Contents (Elt Ideal)) (x6 : (⟨S1, .f32⟩ : BufTy).Contents (Elt Ideal))

/-! ## The first step -/

/-- The input-side pre-activations: row `n` against gate row `j` of the first weight matrix, plus its bias. -/
theorem gi1 (i : S32768x3072.Idx) :
    val_main_v16 (F := Ideal) x0 x1 x3 i = dotb (rowOf (val_main_v0 (F := Ideal) x0) (i 0)) (wOf x1 (i 1)) (bOf x3 (i 1)) := by
  rw [val_main_v16_apply, val_main_v13_apply, val_main_v15_apply, val_main_v14_apply]
  simp only [val_main_v12_apply]
  have e1 : ∀ k, lidx_main_v13 i k = ix2 (i 0) k := fun k => funext fun a => by match a with | ⟨0, _⟩ => rfl | ⟨1, _⟩ => rfl
  have e2 : ∀ k, idx_main_v12 (ridx_main_v13 i k) = ix2 (i 1) k := fun k => funext fun a => by match a with | ⟨0, _⟩ => rfl | ⟨1, _⟩ => rfl
  have e3 : idx_main_v14 (idx_main_v15 i) = ix1 (i 1) := funext fun a => by match a with | ⟨0, _⟩ => rfl
  simp only [e1, e2, e3]
  rfl

/-- The hidden-side pre-activations, likewise with the second weight matrix. -/
theorem gh1 (i : S32768x3072.Idx) :
    val_main_v21 (F := Ideal) x0 x2 x4 i = dotb (rowOf (val_main_v0 (F := Ideal) x0) (i 0)) (wOf x2 (i 1)) (bOf x4 (i 1)) := by
  rw [val_main_v21_apply, val_main_v18_apply, val_main_v20_apply, val_main_v19_apply]
  simp only [val_main_v17_apply]
  have e1 : ∀ k, lidx_main_v18 i k = ix2 (i 0) k := fun k => funext fun a => by match a with | ⟨0, _⟩ => rfl | ⟨1, _⟩ => rfl
  have e2 : ∀ k, idx_main_v17 (ridx_main_v18 i k) = ix2 (i 1) k := fun k => funext fun a => by match a with | ⟨0, _⟩ => rfl | ⟨1, _⟩ => rfl
  have e3 : idx_main_v19 (idx_main_v20 i) = ix1 (i 1) := funext fun a => by match a with | ⟨0, _⟩ => rfl
  simp only [e1, e2, e3]
  rfl

/-- The error gate of row `n`. -/
theorem err1 (i : S32768x1.Idx) :
    val_main_v11 (F := Ideal) x0 x5 x6 i = Ideal.logistic (dotb (rowOf (val_main_v0 (F := Ideal) x0) (i 0)) (weOf x5) (beOf x6)) := by
  rw [val_main_v11_apply, val_main_v10_apply, val_main_cst_0_apply, val_main_v9_apply, val_main_v8_apply, val_main_cst_apply,
    val_main_v7_apply, val_main_v6_apply, val_main_v5_apply, sig_eq, val_main_v2_apply, val_main_v4_apply, val_main_v3_apply]
  simp only [val_main_v1_apply]
  have h1 : (i 1) = (0 : Fin 1) := Fin.ext (Nat.lt_one_iff.mp (i 1).isLt)
  have e1 : ∀ k, lidx_main_v2 i k = ix2 (i 0) k := fun k => funext fun a => by match a with | ⟨0, _⟩ => rfl | ⟨1, _⟩ => rfl
  have e2 : ∀ k, idx_main_v1 (ridx_main_v2 i k) = ix2 (0 : Fin 1) k := fun k => funext fun a => by
    match a with
    | ⟨0, _⟩ => exact h1
    | ⟨1, _⟩ => rfl
  have e3 : idx_main_v3 (idx_main_v4 i) = ix1 (0 : Fin 1) := funext fun a => by match a with | ⟨0, _⟩ => rfl
  simp only [e1, e2, e3]
  rfl

/-- The reset gate. -/
theorem r1 (i : S32768x1024.Idx) :
    val_main_v34 (F := Ideal) x0 x1 x2 x3 x4 i
      = Ideal.logistic (dotb (rowOf (val_main_v0 (F := Ideal) x0) (i 0)) (wOf x1 (g0 (i 1))) (bOf x3 (g0 (i 1)))
          + dotb (rowOf (val_main_v0 (F := Ideal) x0) (i 0)) (wOf x2 (g0 (i 1))) (bOf x4 (g0 (i 1)))) := by
  rw [val_main_v34_apply, val_main_v33_apply, val_main_cst_2_apply, val_main_v32_apply, val_main_v31_apply, val_main_cst_1_apply,
    val_main_v30_apply, val_main_v29_apply, val_main_v28_apply, sig_eq, val_main_v22_apply, val_main_v25_apply, gi1, gh1]
  rfl

/-- The update gate. -/
theorem z1 (i : S32768x1024.Idx) :
    val_main_v41 (F := Ideal) x0 x1 x2 x3 x4 i
      = Ideal.logistic (dotb (rowOf (val_main_v0 (F := Ideal) x0) (i 0)) (wOf x1 (g1 (i 1))) (bOf x3 (g1 (i 1)))
          + dotb (rowOf (val_main_v0 (F := Ideal) x0) (i 0)) (wOf x2 (g1 (i 1))) (bOf x4 (g1 (i 1)))) := by
  rw [val_main_v41_apply, val_main_v40_apply, val_main_cst_4_apply, val_main_v39_apply, val_main_v38_apply, val_main_cst_3_apply,
    val_main_v37_apply, val_main_v36_apply, val_main_v35_apply, sig_eq, val_main_v23_apply, val_main_v26_apply, gi1, gh1]
  rfl

/-- AFTER THE FIRST STEP the state's entry `(n, q)` is the step of row `n` of the initial state. -/
theorem step1 (n : Fin 32768) (q : Fin 1024) :
    val_main_v56 (F := Ideal) x0 x1 x2 x3 x4 x5 x6 (ix2 n q)
      = rowR (wOf x1) (wOf x2) (bOf x3) (bOf x4) (weOf x5) (beOf x6) (rowOf (val_main_v0 (F := Ideal) x0) n) q := by
  rw [val_main_v56_apply, val_main_v53_apply, val_main_v52_apply, val_main_v51_apply, val_main_v50_apply, val_main_cst_6_apply,
    val_main_v55_apply, val_main_v54_apply, val_main_v49_apply, val_main_v47_apply, val_main_v46_apply, val_main_v45_apply,
    val_main_cst_5_apply, val_main_v44_apply, val_main_v43_apply, val_main_v24_apply, val_main_v42_apply, val_main_v27_apply,
    val_main_v48_apply, err1, r1, z1, gi1, gh1]
  show (Ideal.ofBits .f32 0x3F800000#32 - _) * _ + _ * ((Ideal.ofBits .f32 0x3F800000#32 - _) * Ideal.tanh _ + _) = _
  rw [one_f32]
  rfl

/-! ## The second step -/

theorem gi2 (i : S32768x3072.Idx) :
    val_main_v72 (F := Ideal) x0 x1 x2 x3 x4 x5 x6 i = dotb (rowOf (val_main_v56 (F := Ideal) x0 x1 x2 x3 x4 x5 x6) (i 0)) (wOf x1 (i 1)) (bOf x3 (i 1)) := by
  rw [val_main_v72_apply, val_main_v69_apply, val_main_v71_apply, val_main_v70_apply]
  simp only [val_main_v68_apply]
  have e1 : ∀ k, lidx_main_v69 i k = ix2 (i 0) k := fun k => funext fun a => by match a with | ⟨0, _⟩ => rfl | ⟨1, _⟩ => rfl
  have e2 : ∀ k, idx_main_v68 (ridx_main_v69 i k) = ix2 (i 1) k := fun k => funext fun a => by match a with | ⟨0, _⟩ => rfl | ⟨1, _⟩ => rfl
  have e3 : idx_main_v70 (idx_main_v71 i) = ix1 (i 1) := funext fun a => by match a with | ⟨0, _⟩ => rfl
  simp only [e1, e2, e3]
  rfl

theorem gh2 (i : S32768x3072.Idx) :
    val_main_v77 (F := Ideal) x0 x1 x2 x3 x4 x5 x6 i = dotb (rowOf (val_main_v56 (F := Ideal) x0 x1 x2 x3 x4 x5 x6) (i 0)) (wOf x2 (i 1)) (bOf x4 (i 1)) := by
  rw [val_main_v77_apply, val_main_v74_apply, val_main_v76_apply, val_main_v75_apply]
  simp only [val_main_v73_apply]
  have e1 : ∀ k, lidx_main_v74 i k = ix2 (i 0) k := fun k => funext fun a => by match a with | ⟨0, _⟩ => rfl | ⟨1, _⟩ => rfl
  have e2 : ∀ k, idx_main_v73 (ridx_main_v74 i k) = ix2 (i 1) k := fun k => funext fun a => by match a with | ⟨0, _⟩ => rfl | ⟨1, _⟩ => rfl
  have e3 : idx_main_v75 (idx_main_v76 i) = ix1 (i 1) := funext fun a => by match a with | ⟨0, _⟩ => rfl
  simp only [e1, e2, e3]
  rfl

theorem err2 (i : S32768x1.Idx) :
    val_main_v67 (F := Ideal) x0 x1 x2 x3 x4 x5 x6 i = Ideal.logistic (dotb (rowOf (val_main_v56 (F := Ideal) x0 x1 x2 x3 x4 x5 x6) (i 0)) (weOf x5) (beOf x6)) := by
  rw [val_main_v67_apply, val_main_v66_apply, val_main_cst_8_apply, val_main_v65_apply, val_main_v64_apply, val_main_cst_7_apply,
    val_main_v63_apply, val_main_v62_apply, val_main_v61_apply, sig_eq, val_main_v58_apply, val_main_v60_apply, val_main_v59_apply]
  simp only [val_main_v57_apply]
  have h1 : (i 1) = (0 : Fin 1) := Fin.ext (Nat.lt_one_iff.mp (i 1).isLt)
  have e1 : ∀ k, lidx_main_v58 i k = ix2 (i 0) k := fun k => funext fun a => by match a with | ⟨0, _⟩ => rfl | ⟨1, _⟩ => rfl
  have e2 : ∀ k, idx_main_v57 (ridx_main_v58 i k) = ix2 (0 : Fin 1) k := fun k => funext fun a => by
    match a with
    | ⟨0, _⟩ => exact h1
    | ⟨1, _⟩ => rfl
  have e3 : idx_main_v59 (idx_main_v60 i) = ix1 (0 : Fin 1) := funext fun a => by match a with | ⟨0, _⟩ => rfl
  simp only [e1, e2, e3]
  rfl

theorem r2 (i : S32768x1024.Idx) :
    val_main_v90 (F := Ideal) x0 x1 x2 x3 x4 x5 x6 i
      = Ideal.logistic (dotb (rowOf (val_main_v56 (F := Ideal) x0 x1 x2 x3 x4 x5 x6) (i 0)) (wOf x1 (g0 (i 1))) (bOf x3 (g0 (i 1)))
          + dotb (rowOf (val_main_v56 (F := Ideal) x0 x1 x2 x3 x4 x5 x6) (i 0)) (wOf x2 (g0 (i 1))) (bOf x4 (g0 (i 1)))) := by
  rw [val_main_v90_apply, val_main_v89_apply, val_main_cst_10_apply, val_main_v88_apply, val_main_v87_apply, val_main_cst_9_apply,
    val_main_v86_apply, val_main_v85_apply, val_main_v84_apply, sig_eq, val_main_v78_apply, val_main_v81_apply, gi2, gh2]
  rfl

theorem z2 (i : S32768x1024.Idx) :
    val_main_v97 (F := Ideal) x0 x1 x2 x3 x4 x5 x6 i
      = Ideal.logistic (dotb (rowOf (val_main_v56 (F := Ideal) x0 x1 x2 x3 x4 x5 x6) (i 0)) (wOf x1 (g1 (i 1))) (bOf x3 (g1 (i 1)))
          + dotb (rowOf (val_main_v56 (F := Ideal) x0 x1 x2 x3 x4 x5 x6) (i 0)) (wOf x2 (g1 (i 1))) (bOf x4 (g1 (i 1)))) := by
  rw [val_main_v97_apply, val_main_v96_apply, val_main_cst_12_apply, val_main_v95_apply, val_main_v94_apply, val_main_cst_11_apply,
    val_main_v93_apply, val_main_v92_apply, val_main_v91_apply, sig_eq, val_main_v79_apply, val_main_v82_apply, gi2, gh2]
  rfl

/-- AFTER THE SECOND STEP the state's entry `(n, q)` is the step of row `n` of the state after the first. -/
theorem step2 (n : Fin 32768) (q : Fin 1024) :
    val_main_v112 (F := Ideal) x0 x1 x2 x3 x4 x5 x6 (ix2 n q)
      = rowR (wOf x1) (wOf x2) (bOf x3) (bOf x4) (weOf x5) (beOf x6) (rowOf (val_main_v56 (F := Ideal) x0 x1 x2 x3 x4 x5 x6) n) q := by
  rw [val_main_v112_apply, val_main_v109_apply, val_main_v108_apply, val_main_v107_apply, val_main_v106_apply, val_main_cst_14_apply,
    val_main_v111_apply, val_main_v110_apply, val_main_v105_apply, val_main_v103_apply, val_main_v102_apply, val_main_v101_apply,
    val_main_cst_13_apply, val_main_v100_apply, val_main_v99_apply, val_main_v80_apply, val_main_v98_apply, val_main_v83_apply,
    val_main_v104_apply, err2, r2, z2, gi2, gh2]
  show (Ideal.ofBits .f32 0x3F800000#32 - _) * _ + _ * ((Ideal.ofBits .f32 0x3F800000#32 - _) * Ideal.tanh _ + _) = _
  rw [one_f32]
  rfl

/-! ## Both steps -/

/-- One step of a row with the arguments' weights. -/
def rstep (s : Fin 1024 → EReal) : Fin 1024 → EReal :=
  rowR (wOf x1) (wOf x2) (bOf x3) (bOf x4) (weOf x5) (beOf x6) s

/-- THE STATE AFTER BOTH STEPS: every row of the initial state stepped twice. -/
theorem state2 (i : S32768x1024.Idx) :
    val_main_v112 (F := Ideal) x0 x1 x2 x3 x4 x5 x6 i
      = rstep x1 x2 x3 x4 x5 x6 (rstep x1 x2 x3 x4 x5 x6 (rowOf (val_main_v0 (F := Ideal) x0) (i 0))) (i 1) := by
  obtain ⟨n, q, rfl⟩ : ∃ (n : Fin 32768) (q : Fin 1024), i = ix2 n q := ⟨i 0, i 1, eq_ix2 i⟩
  rw [step2]
  unfold rstep
  refine congrArg (fun s => rowR (wOf x1) (wOf x2) (bOf x3) (bOf x4) (weOf x5) (beOf x6) s q) ?_
  funext k
  exact step1 x0 x1 x2 x3 x4 x5 x6 n k

end Cert.ReferenceIdeal.RefValue

end
-- ==== Proof.Bridge.lean ====
/-
  The two programs compute one function on finite arguments.

  The kernel's result array is every row of the state stepped twice by the fused step, with the weights the host lines
  prepared; the reference's state after its two steps is every row stepped twice by the plain step.  The prepared weights
  are the arguments' — summed on the first 2048 gate rows, stacked on the last 1024 — so on finite data the fused step
  is the plain one (`Gru.rowK_eq_rowR`), and a plain step of finite data is finite (`Gru.rowR_real`), which lets the
  second step repeat the argument of the first.
-/
import proofs.«136685_j46291157516382_2_alg».proof.Proof.KernelValue
import proofs.«136685_j46291157516382_2_alg».proof.Proof.RefValue
import proofs.«136685_j46291157516382_2_alg».proof.Proof.Spec

set_option maxRecDepth 16384

noncomputable section

namespace Cert.Bridge

open Idealize.ShloMosaic Idealize.ShloMosaic.ValueIdx Idealize.SL.Sem Cert.Gru
open Cert.KernelIdeal Cert.KernelIdeal.Gen Cert.KernelIdeal.Run

/-- Entry by entry, the kernel's result array is the reference's state after both steps, when every argument entry is a real. -/
theorem result_eq (m : (ℓ : Loc nD τ sig) → Buf (Elt Ideal) ℓ) (c : Dev nD)
    (h0 : ∀ i, ∃ r : ℝ, a0 m c i = ((r : ℝ) : EReal)) (h1 : ∀ i, ∃ r : ℝ, a1 m c i = ((r : ℝ) : EReal))
    (h2 : ∀ i, ∃ r : ℝ, a2 m c i = ((r : ℝ) : EReal)) (h3 : ∀ i, ∃ r : ℝ, a3 m c i = ((r : ℝ) : EReal))
    (h4 : ∀ i, ∃ r : ℝ, a4 m c i = ((r : ℝ) : EReal)) (h5 : ∀ i, ∃ r : ℝ, a5 m c i = ((r : ℝ) : EReal))
    (h6 : ∀ i, ∃ r : ℝ, a6 m c i = ((r : ℝ) : EReal)) (i : S32768x1024.Idx) :
    result m c i
      = Cert.ReferenceIdeal.Read.val_main_v112 (F := Ideal) (a0 m c) (a1 m c) (a2 m c) (a3 m c) (a4 m c) (a5 m c) (a6 m c) i := by
  choose f1 hf1 using h1
  choose f2 hf2 using h2
  choose f3 hf3 using h3
  choose f4 hf4 using h4
  choose f5 hf5 using h5
  choose f6 hf6 using h6
  rw [Cert.ReferenceIdeal.RefValue.state2]
  unfold result kstep Cert.ReferenceIdeal.RefValue.rstep
  have hwe : Block.weOf (V m c main_arg5) = Cert.ReferenceIdeal.RefValue.weOf (a5 m c) := funext fun k => we_apply m c k
  have hbe : Block.beOf (V m c main_v19) = Cert.ReferenceIdeal.RefValue.beOf (a6 m c) := be_apply m c
  rw [hwe, hbe, V_state]
  -- the fused step is the plain one on a finite row
  have key : ∀ (s : Fin 1024 → EReal) (s' : Fin 1024 → ℝ), (∀ k, s k = ((s' k : ℝ) : EReal)) →
      rowK (Block.colsOf (V m c main_v5)) (Block.colsOf (V m c main_v14)) (Block.rowOf (V m c main_v9)) (Block.rowOf (V m c main_v18))
          (Cert.ReferenceIdeal.RefValue.weOf (a5 m c)) (Cert.ReferenceIdeal.RefValue.beOf (a6 m c)) s
        = rowR (Cert.ReferenceIdeal.RefValue.wOf (a1 m c)) (Cert.ReferenceIdeal.RefValue.wOf (a2 m c))
            (Cert.ReferenceIdeal.RefValue.bOf (a3 m c)) (Cert.ReferenceIdeal.RefValue.bOf (a4 m c))
            (Cert.ReferenceIdeal.RefValue.weOf (a5 m c)) (Cert.ReferenceIdeal.RefValue.beOf (a6 m c)) s := fun s s' hs =>
    funext fun q => rowK_eq_rowR (wih' := fun j k => f1 (ix2 j k)) (whh' := fun j k => f2 (ix2 j k)) hs
      (fun j k => hf1 (ix2 j k)) (fun j k => hf2 (ix2 j k))
      (fun j k => w1_apply m c j k) (fun j => b1_apply m c j) (fun q k => w2lo_apply m c q k) (fun q k => w2hi_apply m c q k)
      (fun q => b2lo_apply m c q) (fun q => b2hi_apply m c q) q
  -- the initial row is finite
  have hrow0 : ∀ k, ∃ r : ℝ, state0 m c (ix2 (i 0) k) = ((r : ℝ) : EReal) := fun k => h0 _
  choose s0 hs0 using hrow0
  rw [key _ s0 hs0]
  -- so is the row after the first step
  have hrow1 : ∀ q, ∃ y : ℝ, rowR (Cert.ReferenceIdeal.RefValue.wOf (a1 m c)) (Cert.ReferenceIdeal.RefValue.wOf (a2 m c))
      (Cert.ReferenceIdeal.RefValue.bOf (a3 m c)) (Cert.ReferenceIdeal.RefValue.bOf (a4 m c))
      (Cert.ReferenceIdeal.RefValue.weOf (a5 m c)) (Cert.ReferenceIdeal.RefValue.beOf (a6 m c))
      (fun k => state0 m c (ix2 (i 0) k)) q = ((y : ℝ) : EReal) := fun q =>
    rowR_real (wih' := fun j k => f1 (ix2 j k)) (whh' := fun j k => f2 (ix2 j k)) (bih' := fun j => f3 (ix1 j)) (bhh' := fun j => f4 (ix1 j))
      (we' := fun k => f5 (ix2 (0 : Fin 1) k)) (be' := f6 (ix1 (0 : Fin 1))) hs0
      (fun j k => hf1 (ix2 j k)) (fun j k => hf2 (ix2 j k)) (fun j => hf3 (ix1 j)) (fun j => hf4 (ix1 j))
      (fun k => hf5 (ix2 (0 : Fin 1) k)) (hf6 (ix1 (0 : Fin 1))) q
  choose s1 hs1 using hrow1
  rw [key _ s1 hs1]
  rfl

end Cert.Bridge

end
-- ==== Proof.lean ====
/-
  The certificate: a two-step gated recurrence on 32768 rows of 1024 numbers, computed by a kernel with fused gate
  weights, against its plain reference.

  Frames.  The kernel's two programs have their frames generated whole; the reference is a host program, and its frame
  is its run with the result dropped.
  Idealization.  The ideal pass rewrote nothing, so there is nothing to preserve.
  Values.  At the ideal instance the kernel's result array is every state row stepped twice by the fused step
  (Proof/KernelBlock.lean for a block, Proof/KernelValue.lean for the run), the reference's is every row stepped twice by
  the plain step (Proof/RefValue.lean).  The precondition makes every argument entry a real (Proof/Finite.lean); on
  finite data the two steps are one function and a step stays finite (Proof/Spec.lean), so the two arrays are equal
  entry by entry (Proof/Bridge.lean).  Both programs re-read that array as [8, 4096, 1024] by the same cast.
-/
import proofs.«136685_j46291157516382_2_alg».proof.Defs
import proofs.«136685_j46291157516382_2_alg».proof.Proof.Gen.Kernel
import proofs.«136685_j46291157516382_2_alg».proof.Proof.Gen.Kernel.Skeleton
import proofs.«136685_j46291157516382_2_alg».proof.Proof.Gen.Kernel.Launch
import proofs.«136685_j46291157516382_2_alg».proof.Proof.Gen.Kernel.Points
import proofs.«136685_j46291157516382_2_alg».proof.Proof.Gen.Kernel.Frame
import proofs.«136685_j46291157516382_2_alg».proof.Proof.Gen.KernelIdeal
import proofs.«136685_j46291157516382_2_alg».proof.Proof.Gen.KernelIdeal.Skeleton
import proofs.«136685_j46291157516382_2_alg».proof.Proof.Gen.KernelIdeal.Launch
import proofs.«136685_j46291157516382_2_alg».proof.Proof.Gen.KernelIdeal.Points
import proofs.«136685_j46291157516382_2_alg».proof.Proof.Gen.KernelIdeal.Frame
import proofs.«136685_j46291157516382_2_alg».proof.Proof.Gen.ReferenceIdeal
import proofs.«136685_j46291157516382_2_alg».proof.Proof.Gen.Pre_finite_inputs
import proofs.«136685_j46291157516382_2_alg».proof.Proof.Gen.ReferenceIdeal.Run
import proofs.«136685_j46291157516382_2_alg».proof.Proof.Gen.ReferenceIdeal.Read
import proofs.«136685_j46291157516382_2_alg».proof.Proof.Finite
import proofs.«136685_j46291157516382_2_alg».proof.Proof.Bridge
import Idealize.ShloMosaic.Adequacy
import Idealize.ShloMosaic.Init

set_option maxRecDepth 16384

noncomputable section

namespace Cert.Proof

open Idealize.ShloMosaic Idealize.SL.Sem

theorem frame_k : Cert.frame_Kernel (hKernel := Cert.Kernel.Gen.facts) (hPre_finite_inputs := Cert.Pre_finite_inputs.Gen.facts) :=
  fun m ρ _ => Cert.Kernel.Gen.frame m ρ

theorem frame_ki : Cert.frame_KernelIdeal (hKernelIdeal := Cert.KernelIdeal.Gen.facts) (hPre_finite_inputs := Cert.Pre_finite_inputs.Gen.facts) :=
  fun m ρ _ => Cert.KernelIdeal.Gen.frame m ρ

theorem frame_ri : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (Cert.ReferenceIdeal.Value.run (F := Ideal) m ρ)

/-- The two idealized programs end with equal results: the kernel's run and the reference's run, both read, and the
    two arrays equal entry by entry on the finite arguments the precondition gives. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' hpre hagree
  refine ⟨fun c => shapeCast Cert.KernelIdeal.S8x4096x1024 (Cert.KernelIdeal.Run.result m c)
    Cert.KernelIdeal.Facts₀.shapeCasts_S32768x1024_S8x4096x1024, Cert.KernelIdeal.Run.run m ρ, ?_⟩
  refine (θ_run Cert.ReferenceIdeal.defs _ _).mono (fun _ h c => ⟨(h c).1.trans ?_, (h c).2⟩)
    (Cert.ReferenceIdeal.Value.run (F := Ideal) m' ρ')
  obtain ⟨g0, g1, g2, g3, g4, g5, g6⟩ := hagree c
  obtain ⟨f0, f1, f2, f3, f4, f5, f6⟩ := Cert.Pre_finite_inputs.Finite.finite_of_pre _ _ _ _ _ _ _ (hpre c)
  rw [Cert.ReferenceIdeal.Read.val_main_v113_eq, g0, g1, g2, g3, g4, g5, g6]
  unfold Cert.ReferenceIdeal.Read.val_main_v113
  refine congrArg (fun X => shapeCast Cert.KernelIdeal.S8x4096x1024 X Cert.KernelIdeal.Facts₀.shapeCasts_S32768x1024_S8x4096x1024) ?_
  funext i
  exact (Cert.Bridge.result_eq m c f0 f1 f2 f3 f4 f5 f6 i).symm

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
